-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg4 : FVec F S256x47 .f32) (main_arg5 : FVec F S47 .f32) (main_arg6 : FVec F S256x47 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S256x47 .f32 := Host.absf main_arg4
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S47 .f32 := Host.absf main_arg5
  let main_cst_8 : FVec F S_ .f32 := constant S_ .f32 0x7F800000#32
  let main_v25 : FVec F S47 .f32 := broadcastInDim S47 ![] bcast_S_S47 main_cst_8
  let main_v26 : IVec S47 1 := cmpf .olt main_v24 main_v25
  let main_c_9 : IVec S_ 1 := constantI S_ 1 1#1
  let main_v27 : IVec S_ 1 := (fun x v => Host.reduce IntOp.andi x v reducesTo_S47_S_d0 h_S_) main_v26 main_c_9
  let main_v28 : IVec S_ 1 := andi main_v23 main_v27
  let main_v29 : FVec F S256x47 .f32 := Host.absf main_arg6
  let main_cst_10 : FVec F S_ .f32 := constant S_ .f32 0x7F800000#32
  let main_v30 : FVec F S256x47 .f32 := broadcastInDim S256x47 ![] bcast_S_S256x47 main_cst_10
  let main_v31 : IVec S256x47 1 := cmpf .olt main_v29 main_v30
  let main_c_11 : IVec S_ 1 := constantI S_ 1 1#1
  let main_v32 : IVec S_ 1 := (fun x v => Host.reduce IntOp.andi x v reducesTo_S256x47_S_d0_1 h_S_) main_v31 main_c_11
  let main_v33 : IVec S_ 1 := andi main_v28 main_v32
  main_v33

def fn {F : FTy → Type} [FloatOps F] (main_arg0 : FVec F S1000000x100 .f32) (main_arg1 : FVec F S100x256 .f32) (main_arg2 : FVec F S256 .f32) (main_arg3 : FVec F S100x256 .f32) (main_arg4 : FVec F S256x47 .f32) (main_arg5 : FVec F S47 .f32) (main_arg6 : FVec F S256x47 .f32) (main_arg7 : IVec S1024000 32) (main_arg8 : IVec S1024000 32) (main_arg9 : IVec S40960 32) (main_arg10 : IVec S40960 32) : IVec S_ 1 :=
  let main_v0 : FVec F S1000000x100 .f32 := Host.absf main_arg0
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_v4 : FVec F S100x256 .f32 := Host.absf main_arg1
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg3
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg4 main_arg5 main_arg6 main_v13 main_v16
-- ==== Kernel.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S_ : Shape := ⟨0, ![]⟩
abbrev S1024000x1 : Shape := ⟨2, ![1024000, 1]⟩
abbrev S1024000x100 : Shape := ⟨2, ![1024000, 100]⟩
abbrev S1024000x101 : Shape := ⟨2, ![1024000, 101]⟩
abbrev S40960x101 : Shape := ⟨2, ![40960, 101]⟩
abbrev S40960x100 : Shape := ⟨2, ![40960, 100]⟩
abbrev S40960x1 : Shape := ⟨2, ![40960, 1]⟩
abbrev S40960x256 : Shape := ⟨2, ![40960, 256]⟩
abbrev S4096x100 : Shape := ⟨2, ![4096, 100]⟩
abbrev S4096x1 : Shape := ⟨2, ![4096, 1]⟩
abbrev S4096x256 : Shape := ⟨2, ![4096, 256]⟩
abbrev S1x256 : Shape := ⟨2, ![1, 256]⟩
abbrev S40960x257 : Shape := ⟨2, ![40960, 257]⟩
abbrev S4096x257 : Shape := ⟨2, ![4096, 257]⟩
abbrev S4096x47 : Shape := ⟨2, ![4096, 47]⟩
abbrev S2048x256 : Shape := ⟨2, ![2048, 256]⟩
abbrev S2048x1 : Shape := ⟨2, ![2048, 1]⟩
abbrev S2048x47 : Shape := ⟨2, ![2048, 47]⟩
abbrev S1x47 : Shape := ⟨2, ![1, 47]⟩
abbrev S2048 : Shape := ⟨1, ![2048]⟩

abbrev nBuf : Space → Nat
  | .hbm => 52
  | .vmem => 22
  | .smem => 0
  | _ => 0

abbrev bufTy : (tb : Table) → Fin (tcTables nBuf tb) → BufTy
  | .hbm, ⟨0, _⟩ => ⟨S1000000x100, .f32⟩
  | .hbm, ⟨1, _⟩ => ⟨S100x256, .f32⟩
  | .hbm, ⟨2, _⟩ => ⟨S256, .f32⟩
  | .hbm, ⟨3, _⟩ => ⟨S100x256, .f32⟩
  | .hbm, ⟨4, _⟩ => ⟨S256x47, .f32⟩
  | .hbm, ⟨5, _⟩ => ⟨S47, .f32⟩
  | .hbm, ⟨6, _⟩ => ⟨S256x47, .f32⟩
  | .hbm, ⟨7, _⟩ => ⟨S1024000, .i32⟩
  | .hbm, ⟨8, _⟩ => ⟨S1024000, .i32⟩
  | .hbm, ⟨9, _⟩ => ⟨S40960, .i32⟩
  | .hbm, ⟨10, _⟩ => ⟨S40960, .i32⟩
  | .hbm, ⟨11, _⟩ => ⟨S_, .i32⟩
  | .hbm, ⟨12, _⟩ => ⟨S1024000, .i32⟩
  | .hbm, ⟨13, _⟩ => ⟨S1024000, .i1⟩
  | .hbm, ⟨14, _⟩ => ⟨S_, .i32⟩
  | .hbm, ⟨15, _⟩ => ⟨S1024000, .i32⟩
  | .hbm, ⟨16, _⟩ => ⟨S1024000, .i32⟩
  | .hbm, ⟨17, _⟩ => ⟨S1024000, .i32⟩
  | .hbm, ⟨18, _⟩ => ⟨S1024000x1, .i32⟩
  | .hbm, ⟨19, _⟩ => ⟨S1024000x100, .f32⟩
  | .hbm, ⟨20, _⟩ => ⟨S_, .f32⟩
  | .hbm, ⟨21, _⟩ => ⟨S1024000x1, .f32⟩
  | .hbm, ⟨22, _⟩ => ⟨S1024000x101, .f32⟩
  | .hbm, ⟨23, _⟩ => ⟨S_, .f32⟩
  | .hbm, ⟨24, _⟩ => ⟨S40960x101, .f32⟩
  | .hbm, ⟨25, _⟩ => ⟨S1024000x1, .i32⟩
  | .hbm, ⟨26, _⟩ => ⟨S40960x101, .f32⟩
  | .hbm, ⟨27, _⟩ => ⟨S40960x100, .f32⟩
  | .hbm, ⟨28, _⟩ => ⟨S40960x1, .f32⟩
  | .hbm, ⟨29, _⟩ => ⟨S40960x100, .f32⟩
  | .hbm, ⟨30, _⟩ => ⟨S40960x256, .bf16⟩
  | .hbm, ⟨31, _⟩ => ⟨S_, .i32⟩
  | .hbm, ⟨32, _⟩ => ⟨S40960, .i32⟩
  | .hbm, ⟨33, _⟩ => ⟨S40960, .i1⟩
  | .hbm, ⟨34, _⟩ => ⟨S_, .i32⟩
  | .hbm, ⟨35, _⟩ => ⟨S40960, .i32⟩
  | .hbm, ⟨36, _⟩ => ⟨S40960, .i32⟩
  | .hbm, ⟨37, _⟩ => ⟨S40960, .i32⟩
  | .hbm, ⟨38, _⟩ => ⟨S40960x1, .i32⟩
  | .hbm, ⟨39, _⟩ => ⟨S40960x256, .bf16⟩
  | .hbm, ⟨40, _⟩ => ⟨S40960x256, .f32⟩
  | .hbm, ⟨41, _⟩ => ⟨S_, .f32⟩
  | .hbm, ⟨42, _⟩ => ⟨S40960x1, .f32⟩
  | .hbm, ⟨43, _⟩ => ⟨S40960x257, .f32⟩
  | .hbm, ⟨44, _⟩ => ⟨S_, .f32⟩
  | .hbm, ⟨45, _⟩ => ⟨S4096x257, .f32⟩
  | .hbm, ⟨46, _⟩ => ⟨S40960x1, .i32⟩
  | .hbm, ⟨47, _⟩ => ⟨S4096x257, .f32⟩
  | .hbm, ⟨48, _⟩ => ⟨S4096x256, .f32⟩
  | .hbm, ⟨49, _⟩ => ⟨S4096x1, .f32⟩
  | .hbm, ⟨50, _⟩ => ⟨S4096x256, .bf16⟩
  | .hbm, ⟨51, _⟩ => ⟨S4096x47, .f32⟩
  | .local _ .vmem, ⟨0, _⟩ => ⟨S4096x100, .f32⟩
  | .local _ .vmem, ⟨1, _⟩ => ⟨S4096x100, .f32⟩
  | .local _ .vmem, ⟨2, _⟩ => ⟨S4096x1, .f32⟩
  | .local _ .vmem, ⟨3, _⟩ => ⟨S4096x1, .f32⟩
  | .local _ .vmem, ⟨4, _⟩ => ⟨S4096x100, .f32⟩
  | .local _ .vmem, ⟨5, _⟩ => ⟨S4096x100, .f32⟩
  | .local _ .vmem, ⟨6, _⟩ => ⟨S100x256, .f32⟩
  | .local _ .vmem, ⟨7, _⟩ => ⟨S256, .f32⟩
  | .local _ .vmem, ⟨8, _⟩ => ⟨S100x256, .f32⟩
  | .local _ .vmem, ⟨9, _⟩ => ⟨S4096x256, .bf16⟩
  | .local _ .vmem, ⟨10, _⟩ => ⟨S4096x256, .bf16⟩
  | .local _ .vmem, ⟨11, _⟩ => ⟨S2048x256, .f32⟩
  | .local _ .vmem, ⟨12, _⟩ => ⟨S2048x256, .f32⟩
  | .local _ .vmem, ⟨13, _⟩ => ⟨S2048x1, .f32⟩
  | .local _ .vmem, ⟨14, _⟩ => ⟨S2048x1, .f32⟩
  | .local _ .vmem, ⟨15, _⟩ => ⟨S2048x256, .bf16⟩
  | .local _ .vmem, ⟨16, _⟩ => ⟨S2048x256, .bf16⟩
  | .local _ .vmem, ⟨17, _⟩ => ⟨S256x47, .f32⟩
  | .local _ .vmem, ⟨18, _⟩ => ⟨S47, .f32⟩
  | .local _ .vmem, ⟨19, _⟩ => ⟨S256x47, .f32⟩
  | .local _ .vmem, ⟨20, _⟩ => ⟨S2048x47, .f32⟩
  | .local _ .vmem, ⟨21, _⟩ => ⟨S2048x47, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x47 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x47 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S1024000x1 : S_.BroadcastsInDim S1024000x1 (![] : Fin 0 → Fin S1024000x1.rank)
  concatenates_S1024000x100_S1024000x1_S1024000x101_d1 : Shape.Concatenates [S1024000x100, S1024000x1] S1024000x101 1
  bcast_S_S40960x101 : S_.BroadcastsInDim S40960x101 (![] : Fin 0 → Fin S40960x101.rank)
  slices_S40960x101_S40960x100_0_0 : S40960x101.Slices ![0, 0] S40960x100
  slices_S40960x101_S40960x1_0_100 : S40960x101.Slices ![0, 100] S40960x1
  slices_S1000000x100_S40960x100_0_0 : S1000000x100.Slices ![0, 0] S40960x100
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x100 : S4096x1.Broadcasts S4096x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  bcast_S_S40960 : S_.BroadcastsInDim S40960 (![] : Fin 0 → Fin S40960.rank)
  bcast_S40960_S40960x1_0 : S40960.BroadcastsInDim S40960x1 (![0] : Fin 1 → Fin S40960x1.rank)
  bcast_S_S40960x1 : S_.BroadcastsInDim S40960x1 (![] : Fin 0 → Fin S40960x1.rank)
  concatenates_S40960x256_S40960x1_S40960x257_d1 : Shape.Concatenates [S40960x256, S40960x1] S40960x257 1
  bcast_S_S4096x257 : S_.BroadcastsInDim S4096x257 (![] : Fin 0 → Fin S4096x257.rank)
  slices_S4096x257_S4096x256_0_0 : S4096x257.Slices ![0, 0] S4096x256
  slices_S4096x257_S4096x1_0_256 : S4096x257.Slices ![0, 256] S4096x1
  slices_S40960x256_S4096x256_0_0 : S40960x256.Slices ![0, 0] S4096x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S2048x47 : S1x47.Broadcasts S2048x47
  reduces_S2048x47_S2048 : S2048x47.Reduces [1] S2048
  shapeCasts_S2048_S2048x1 : S2048.ShapeCasts S2048x1
  broadcasts_S2048x1_S2048x47 : S2048x1.Broadcasts S2048x47
  inb_S2048x47_S2048x47_0_0 : ∀ a, (![0, 0] : Fin 2 → Nat) a + S2048x47.size a ≤ S2048x47.size a
  h_S2048x47 : 0 < S2048x47.numel
  gather_S1000000x100_S1024000x1_S1024000x100_1_0_n_n_0_1_1100_wf : GatherDims.WF S1000000x100 S1024000x1 S1024000x100 [1] [0] [] [0] [] 1 ![1, 100]
  scatter_S40960x101_S1024000x1_S1024000x101_1_0_0_1_wf : ScatterDims.WF S40960x101 S1024000x1 S1024000x101 [1] [0] [0] 1
  dot_S4096x100_S100x256_S4096x256_1_0_0_1_n_n_wf : DotDims.WF S4096x100 S100x256 S4096x256 [1] [0] [0] [1] [] []
  gather_S40960x256_S40960x1_S40960x256_1_0_n_n_0_1_1256_wf : GatherDims.WF S40960x256 S40960x1 S40960x256 [1] [0] [] [0] [] 1 ![1, 256]
  scatter_S4096x257_S40960x1_S40960x257_1_0_0_1_wf : ScatterDims.WF S4096x257 S40960x1 S40960x257 [1] [0] [0] 1
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S40960x100.size a
  hwx0_0 : ∀ i : grid0.Coords, EltTy.bits .f32 = 32 ∨ (Rect.block (s := S40960x100) S4096x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S40960x1.size a
  hwx0_1 : ∀ i : grid0.Coords, EltTy.bits .f32 = 32 ∨ (Rect.block (s := S40960x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x100.size a ≤ S40960x100.size a
  hwx0_2 : ∀ i : grid0.Coords, EltTy.bits .f32 = 32 ∨ (Rect.block (s := S40960x100) S4096x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x256.size a ≤ S100x256.size a
  hwx0_3 : ∀ i : grid0.Coords, EltTy.bits .f32 = 32 ∨ (Rect.block (s := S100x256) S100x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x256.size a ≤ S100x256.size a
  hwx0_5 : ∀ i : grid0.Coords, EltTy.bits .f32 = 32 ∨ (Rect.block (s := S100x256) S100x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S40960x256.size a
  hwx0_6 : ∀ i : grid0.Coords, EltTy.bits .bf16 = 32 ∨ (Rect.block (s := S40960x256) S4096x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x256.size a
  hwx1_0 : ∀ i : grid1.Coords, EltTy.bits .f32 = 32 ∨ (Rect.block (s := S4096x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S4096x1.size a
  hwx1_1 : ∀ i : grid1.Coords, EltTy.bits .f32 = 32 ∨ (Rect.block (s := S4096x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x256.size a
  hwx1_2 : ∀ i : grid1.Coords, EltTy.bits .bf16 = 32 ∨ (Rect.block (s := S4096x256) S2048x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x47.size a ≤ S256x47.size a
  hwx1_3 : ∀ i : grid1.Coords, EltTy.bits .f32 = 32 ∨ (Rect.block (s := S256x47) S256x47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S47.size a ≤ S47.size a
  hwx1_4 : ∀ i : grid1.Coords, EltTy.bits .f32 = 32 ∨ (Rect.block (s := S47) S47.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x47.size a ≤ S256x47.size a
  hwx1_5 : ∀ i : grid1.Coords, EltTy.bits .f32 = 32 ∨ (Rect.block (s := S256x47) S256x47.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x47.size a ≤ S4096x47.size a
  hwx1_6 : ∀ i : grid1.Coords, EltTy.bits .f32 = 32 ∨ (Rect.block (s := S4096x47) S2048x47.size (cc1_transform_6 i) (hinb1_6 i)).WholeWords (EltTy.packing .f32)

variable [Facts₀]

def gather_S1000000x100_S1024000x1_S1024000x100_1_0_n_n_0_1_1100 : GatherDims S1000000x100 S1024000x1 S1024000x100 where
  offsetDims := [1]
  collapsedSliceDims := [0]
  operandBatchingDims := []
  startIndicesBatchingDims := []
  startIndexMap := [0]
  indexVectorDim := 1
  sliceSizes := ![1, 100]
  wf := gather_S1000000x100_S1024000x1_S1024000x100_1_0_n_n_0_1_1100_wf
def scatter_S40960x101_S1024000x1_S1024000x101_1_0_0_1 : ScatterDims S40960x101 S1024000x1 S1024000x101 where
  updateWindowDims := [1]
  insertedWindowDims := [0]
  scatterDimsToOperandDims := [0]
  indexVectorDim := 1
  wf := scatter_S40960x101_S1024000x1_S1024000x101_1_0_0_1_wf
def dot_S4096x100_S100x256_S4096x256_1_0_0_1_n_n : DotDims S4096x100 S100x256 S4096x256 where
  lhsContracting := [1]
  rhsContracting := [0]
  lhsNonContracting := [0]
  rhsNonContracting := [1]
  lhsBatch := []
  rhsBatch := []
  wf := dot_S4096x100_S100x256_S4096x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x257_S40960x1_S40960x257_1_0_0_1 : ScatterDims S4096x257 S40960x1 S40960x257 where
  updateWindowDims := [1]
  insertedWindowDims := [0]
  scatterDimsToOperandDims := [0]
  indexVectorDim := 1
  wf := scatter_S4096x257_S40960x1_S40960x257_1_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_v12) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4096x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S100x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S100x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4096x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x47.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2048x47.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x100 : Shape := ⟨2, ![1000000, 100]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1024000 : Shape := ⟨1, ![1024000]⟩
abbrev S40960 : Shape := ⟨1, ![40960]⟩
abbrev S40960x100 : Shape := ⟨2, ![40960, 100]⟩
abbrev S_ : Shape := ⟨0, ![]⟩
abbrev S1024000x1 : Shape := ⟨2, ![1024000, 1]⟩
abbrev S1024000x100 : Shape := ⟨2, ![1024000, 100]⟩
abbrev S40960x1 : Shape := ⟨2, ![40960, 1]⟩
abbrev S40960x256 : Shape := ⟨2, ![40960, 256]⟩
abbrev S1x256 : Shape := ⟨2, ![1, 256]⟩
abbrev S4096x256 : Shape := ⟨2, ![4096, 256]⟩
abbrev S4096x1 : Shape := ⟨2, ![4096, 1]⟩
abbrev S4096x47 : Shape := ⟨2, ![4096, 47]⟩
abbrev S1x47 : Shape := ⟨2, ![1, 47]⟩
abbrev S4096 : Shape := ⟨1, ![4096]⟩

abbrev nBuf : Space → Nat
  | .hbm => 91
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S100x256, .f32⟩
  | .hbm, ⟨2, _⟩ => ⟨S256, .f32⟩
  | .hbm, ⟨3, _⟩ => ⟨S100x256, .f32⟩
  | .hbm, ⟨4, _⟩ => ⟨S256x47, .f32⟩
  | .hbm, ⟨5, _⟩ => ⟨S47, .f32⟩
  | .hbm, ⟨6, _⟩ => ⟨S256x47, .f32⟩
  | .hbm, ⟨7, _⟩ => ⟨S1024000, .i32⟩
  | .hbm, ⟨8, _⟩ => ⟨S1024000, .i32⟩
  | .hbm, ⟨9, _⟩ => ⟨S40960, .i32⟩
  | .hbm, ⟨10, _⟩ => ⟨S40960, .i32⟩
  | .hbm, ⟨11, _⟩ => ⟨S40960x100, .f32⟩
  | .hbm, ⟨12, _⟩ => ⟨S_, .i32⟩
  | .hbm, ⟨13, _⟩ => ⟨S1024000, .i32⟩
  | .hbm, ⟨14, _⟩ => ⟨S1024000, .i1⟩
  | .hbm, ⟨15, _⟩ => ⟨S_, .i32⟩
  | .hbm, ⟨16, _⟩ => ⟨S1024000, .i32⟩
  | .hbm, ⟨17, _⟩ => ⟨S1024000, .i32⟩
  | .hbm, ⟨18, _⟩ => ⟨S1024000, .i32⟩
  | .hbm, ⟨19, _⟩ => ⟨S1024000x1, .i32⟩
  | .hbm, ⟨20, _⟩ => ⟨S1024000x100, .f32⟩
  | .hbm, ⟨21, _⟩ => ⟨S_, .f32⟩
  | .hbm, ⟨22, _⟩ => ⟨S40960x100, .f32⟩
  | .hbm, ⟨23, _⟩ => ⟨S1024000x1, .i32⟩
  | .hbm, ⟨24, _⟩ => ⟨S40960x100, .f32⟩
  | .hbm, ⟨25, _⟩ => ⟨S_, .f32⟩
  | .hbm, ⟨26, _⟩ => ⟨S1024000x1, .f32⟩
  | .hbm, ⟨27, _⟩ => ⟨S_, .f32⟩
  | .hbm, ⟨28, _⟩ => ⟨S40960x1, .f32⟩
  | .hbm, ⟨29, _⟩ => ⟨S1024000x1, .i32⟩
  | .hbm, ⟨30, _⟩ => ⟨S40960x1, .f32⟩
  | .hbm, ⟨31, _⟩ => ⟨S_, .f32⟩
  | .hbm, ⟨32, _⟩ => ⟨S40960x1, .f32⟩
  | .hbm, ⟨33, _⟩ => ⟨S40960x1, .f32⟩
  | .hbm, ⟨34, _⟩ => ⟨S40960x100, .f32⟩
  | .hbm, ⟨35, _⟩ => ⟨S40960x100, .f32⟩
  | .hbm, ⟨36, _⟩ => ⟨S40960x256, .f32⟩
  | .hbm, ⟨37, _⟩ => ⟨S1x256, .f32⟩
  | .hbm, ⟨38, _⟩ => ⟨S40960x256, .f32⟩
  | .hbm, ⟨39, _⟩ => ⟨S40960x256, .f32⟩
  | .hbm, ⟨40, _⟩ => ⟨S40960x256, .f32⟩
  | .hbm, ⟨41, _⟩ => ⟨S40960x256, .f32⟩
  | .hbm, ⟨42, _⟩ => ⟨S_, .f32⟩
  | .hbm, ⟨43, _⟩ => ⟨S40960x256, .f32⟩
  | .hbm, ⟨44, _⟩ => ⟨S40960x256, .f32⟩
  | .hbm, ⟨45, _⟩ => ⟨S4096x256, .f32⟩
  | .hbm, ⟨46, _⟩ => ⟨S_, .i32⟩
  | .hbm, ⟨47, _⟩ => ⟨S40960, .i32⟩
  | .hbm, ⟨48, _⟩ => ⟨S40960, .i1⟩
  | .hbm, ⟨49, _⟩ => ⟨S_, .i32⟩
  | .hbm, ⟨50, _⟩ => ⟨S40960, .i32⟩
  | .hbm, ⟨51, _⟩ => ⟨S40960, .i32⟩
  | .hbm, ⟨52, _⟩ => ⟨S40960, .i32⟩
  | .hbm, ⟨53, _⟩ => ⟨S40960x1, .i32⟩
  | .hbm, ⟨54, _⟩ => ⟨S40960x256, .f32⟩
  | .hbm, ⟨55, _⟩ => ⟨S_, .f32⟩
  | .hbm, ⟨56, _⟩ => ⟨S4096x256, .f32⟩
  | .hbm, ⟨57, _⟩ => ⟨S40960x1, .i32⟩
  | .hbm, ⟨58, _⟩ => ⟨S4096x256, .f32⟩
  | .hbm, ⟨59, _⟩ => ⟨S_, .f32⟩
  | .hbm, ⟨60, _⟩ => ⟨S40960x1, .f32⟩
  | .hbm, ⟨61, _⟩ => ⟨S_, .f32⟩
  | .hbm, ⟨62, _⟩ => ⟨S4096x1, .f32⟩
  | .hbm, ⟨63, _⟩ => ⟨S40960x1, .i32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x256, .f32⟩
  | .hbm, ⟨69, _⟩ => ⟨S4096x256, .f32⟩
  | .hbm, ⟨70, _⟩ => ⟨S4096x47, .f32⟩
  | .hbm, ⟨71, _⟩ => ⟨S1x47, .f32⟩
  | .hbm, ⟨72, _⟩ => ⟨S4096x47, .f32⟩
  | .hbm, ⟨73, _⟩ => ⟨S4096x47, .f32⟩
  | .hbm, ⟨74, _⟩ => ⟨S4096x47, .f32⟩
  | .hbm, ⟨75, _⟩ => ⟨S4096x47, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1, .f32⟩
  | .hbm, ⟨82, _⟩ => ⟨S4096x47, .f32⟩
  | .hbm, ⟨83, _⟩ => ⟨S4096x47, .f32⟩
  | .hbm, ⟨84, _⟩ => ⟨S4096x47, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1, .f32⟩
  | .hbm, ⟨89, _⟩ => ⟨S4096x47, .f32⟩
  | .hbm, ⟨90, _⟩ => ⟨S4096x47, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_call1_cst_0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_cst_1 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_v51 : Ref sig .tc := ⟨.hbm, 90, rfl⟩

abbrev nD : Nat := 1
abbrev τ : Topo := Topo.v7x

variable {F : FTy → Type} [FloatOps F]

class Facts₀ : Prop where
  slices_S1000000x100_S40960x100_0_0 : S1000000x100.Slices ![0, 0] S40960x100
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S40960x100 : S_.BroadcastsInDim S40960x100 (![] : Fin 0 → Fin S40960x100.rank)
  bcast_S_S1024000x1 : S_.BroadcastsInDim S1024000x1 (![] : Fin 0 → Fin S1024000x1.rank)
  bcast_S_S40960x1 : S_.BroadcastsInDim S40960x1 (![] : Fin 0 → Fin S40960x1.rank)
  bcast_S40960x1_S40960x100_0_1 : S40960x1.BroadcastsInDim S40960x100 (![0, 1] : Fin 2 → Fin S40960x100.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  bcast_S_S40960x256 : S_.BroadcastsInDim S40960x256 (![] : Fin 0 → Fin S40960x256.rank)
  slices_S40960x256_S4096x256_0_0 : S40960x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  reducesTo_S4096x47_S4096_d1 : S4096x47.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x47_0_1 : S4096x1.BroadcastsInDim S4096x47 (![0, 1] : Fin 2 → Fin S4096x47.rank)
  gather_S1000000x100_S1024000x1_S1024000x100_1_0_n_n_0_1_1100_wf : GatherDims.WF S1000000x100 S1024000x1 S1024000x100 [1] [0] [] [0] [] 1 ![1, 100]
  scatter_S40960x100_S1024000x1_S1024000x100_1_0_0_1_wf : ScatterDims.WF S40960x100 S1024000x1 S1024000x100 [1] [0] [0] 1
  scatter_S40960x1_S1024000x1_S1024000x1_1_0_0_1_wf : ScatterDims.WF S40960x1 S1024000x1 S1024000x1 [1] [0] [0] 1
  dot_S40960x100_S100x256_S40960x256_1_0_0_1_n_n_wf : DotDims.WF S40960x100 S100x256 S40960x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096x1_S40960x1_S40960x1_1_0_0_1_wf : ScatterDims.WF S4096x1 S40960x1 S40960x1 [1] [0] [0] 1
  dot_S4096x256_S256x47_S4096x47_1_0_0_1_n_n_wf : DotDims.WF S4096x256 S256x47 S4096x47 [1] [0] [0] [1] [] []

variable [Facts₀]

def gather_S1000000x100_S1024000x1_S1024000x100_1_0_n_n_0_1_1100 : GatherDims S1000000x100 S1024000x1 S1024000x100 where
  offsetDims := [1]
  collapsedSliceDims := [0]
  operandBatchingDims := []
  startIndicesBatchingDims := []
  startIndexMap := [0]
  indexVectorDim := 1
  sliceSizes := ![1, 100]
  wf := gather_S1000000x100_S1024000x1_S1024000x100_1_0_n_n_0_1_1100_wf
def scatter_S40960x100_S1024000x1_S1024000x100_1_0_0_1 : ScatterDims S40960x100 S1024000x1 S1024000x100 where
  updateWindowDims := [1]
  insertedWindowDims := [0]
  scatterDimsToOperandDims := [0]
  indexVectorDim := 1
  wf := scatter_S40960x100_S1024000x1_S1024000x100_1_0_0_1_wf
def scatter_S40960x1_S1024000x1_S1024000x1_1_0_0_1 : ScatterDims S40960x1 S1024000x1 S1024000x1 where
  updateWindowDims := [1]
  insertedWindowDims := [0]
  scatterDimsToOperandDims := [0]
  indexVectorDim := 1
  wf := scatter_S40960x1_S1024000x1_S1024000x1_1_0_0_1_wf
def dot_S40960x100_S100x256_S40960x256_1_0_0_1_n_n : DotDims S40960x100 S100x256 S40960x256 where
  lhsContracting := [1]
  rhsContracting := [0]
  lhsNonContracting := [0]
  rhsNonContracting := [1]
  lhsBatch := []
  rhsBatch := []
  wf := dot_S40960x100_S100x256_S40960x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096x1_S40960x1_S40960x1_1_0_0_1 : ScatterDims S4096x1 S40960x1 S40960x1 where
  updateWindowDims := [1]
  insertedWindowDims := [0]
  scatterDimsToOperandDims := [0]
  indexVectorDim := 1
  wf := scatter_S4096x1_S40960x1_S40960x1_1_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.KernelRun.lean ====
/-
  The kernel program's run with its result named.

  @main is four segments: the host operations that gather and add up the first layer's neighbour rows, the first layer's
  region, the host operations that do the same for the second layer from the first region's output, and the second layer's
  region. The buffer contents at the four boundaries are a fold from the launch memory: after the first stretch, after the
  first region (its output array at what its write-backs leave), after the second stretch, after the second region. Every
  weakly fair execution from a memory with zero counters terminates without a fault in a state whose result buffer holds
  the last boundary's contents of that buffer, and whose argument buffers hold what they held at the launch.
-/
import proofs.«154917_j5033701671208_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.ValueRun

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.SageSpec.lean ====
/-
  The mathematics of one mean-aggregation layer on the extended reals, free of any program.

  For an output entry, with s the row of neighbour sums, cnt the neighbour count, x the node's own row, and the
  columns wl, wr of the two weight matrices and the bias b, one program forms
      (Σ_k (s k · (1 / max cnt 1)) · wl k  +  Σ_k x k · wr k)  +  b            (`denseMul`)
  and the other
      (Σ_k (s k / max cnt 1) · wl k  +  b)  +  Σ_k x k · wr k                  (`denseDiv`).
  When the count is a real number the divisor max cnt 1 is a real number ≥ 1, so dividing by it is multiplying by its
  reciprocal on every extended real, infinities included, and the two differ only in the order of three addends
  (`denseMul_eq_denseDiv`). A count obtained by adding ones is real (`real_sum_ite_one`).
  `logSoftmaxRow` is one row's log-softmax at a column, the row maximum a fold of max from −∞.
-/
import Idealize.ShloMosaic.PureOps.Ideal
import Idealize.ShloMosaic.PureOps.Ideal.Laws

noncomputable section

open scoped BigOperators

namespace Cert.Sage

open Idealize.ShloMosaic

/-- The f32 word of 1.0. -/
abbrev one : EReal := Ideal.ofBits .f32 0x3F800000#32
/-- The f32 word of 0.0. -/
abbrev zero : EReal := Ideal.ofBits .f32 0x00000000#32

theorem one_eq : one = ((1 : ℝ) : EReal) := by
  simp [one, Ideal.ofBits, Ideal.ieee, -EReal.coe_mul]; norm_num

variable {n : ℕ}

/-- The layer's entry with the mean taken by multiplying with the reciprocal of the clamped count. -/
def denseMul (s : Fin n → EReal) (cnt : EReal) (x wl wr : Fin n → EReal) (b : EReal) : EReal :=
  (∑ k, (s k * Ideal.div one (max cnt one)) * wl k + ∑ k, x k * wr k) + b

/-- The layer's entry with the mean taken by dividing by the clamped count. -/
def denseDiv (s : Fin n → EReal) (cnt : EReal) (x wl wr : Fin n → EReal) (b : EReal) : EReal :=
  (∑ k, Ideal.div (s k) (max cnt one) * wl k + b) + ∑ k, x k * wr k

/-- With a real count the two arrangements agree on all extended reals. -/
theorem denseMul_eq_denseDiv (s : Fin n → EReal) (c : ℝ) (x wl wr : Fin n → EReal) (b : EReal) :
    denseMul s (c : EReal) x wl wr b = denseDiv s (c : EReal) x wl wr b := by
  unfold denseMul denseDiv
  have hmax : max (c : EReal) one = ((max c 1 : ℝ) : EReal) := by
    rw [one_eq]; exact (EReal.coe_strictMono.monotone.map_max).symm
  have hne : (max c 1 : ℝ) ≠ 0 := by
    have : (1 : ℝ) ≤ max c 1 := le_max_right _ _
    intro h; rw [h] at this; linarith
  have hrec : Ideal.div one ((max c 1 : ℝ) : EReal) = ((1 / max c 1 : ℝ) : EReal) := by
    rw [Ideal.div_coe hne, one_eq, ← EReal.coe_mul, one_mul]
  rw [hmax, hrec]
  have hterm : ∀ k, Ideal.div (s k) ((max c 1 : ℝ) : EReal) = s k * ((1 / max c 1 : ℝ) : EReal) :=
    fun k => Ideal.div_coe hne (s k)
  simp only [hterm]
  rw [add_right_comm]

/-- A finite sum of ones and zeros is a real number. -/
theorem real_sum_ite_one {ι : Type*} (t : Finset ι) (P : ι → Prop) [DecidablePred P] :
    ∃ c : ℝ, (∑ e ∈ t, (if P e then one else (0 : EReal))) = (c : EReal) := by
  classical
  induction t using Finset.induction_on with
  | empty => exact ⟨0, by simp⟩
  | insert a t ha ih =>
    obtain ⟨c, hc⟩ := ih
    rw [Finset.sum_insert ha, hc]
    by_cases h : P a
    · exact ⟨1 + c, by rw [if_pos h, one_eq, ← EReal.coe_add]⟩
    · exact ⟨c, by rw [if_neg h, zero_add]⟩

/-- The f32 word of −∞, the accumulator a row maximum starts from. -/
abbrev negInf : EReal := Ideal.ofBits .f32 0xFF800000#32

/-- One row's log-softmax at column j: the entry's distance below the row maximum, less the logarithm of the sum of
    the exponentials of those distances; the maximum a fold of max from −∞. -/
def logSoftmaxRow (acc : Fin n → EReal) (j : Fin n) : EReal :=
  (acc j - (Finset.univ : Finset (Fin n)).fold max negInf acc)
    - Ideal.log (∑ j' : Fin n, Ideal.exp (acc j' - (Finset.univ : Finset (Fin n)).fold max negInf acc))

end Cert.Sage

end
-- ==== Proof.DenseRows.lean ====
/-
  One mean-aggregation layer as the vector terms a kernel body prints, read at an entry given by coordinates, on
  the extended reals; generic in the extents a (rows of the block), n (input width) and b (output width).

  * `meanRows agg cnt`: every row of the neighbour sums times the reciprocal of its clamped count — the count kept as
    a column [a, 1], clamped below by 1, inverted, broadcast along the row. Entry (p, k) is
    agg(p,k) · (1 / max(cnt(p,0), 1)).
  * `denseRows mean xd wl wr bias`: mean · wl + xd · wr + bias, the two products into zero accumulators and the bias a
    [b] vector laid as one row and repeated down the rows. Entry (p, j) is
    (Σ_k mean(p,k)·wl(k,j) + Σ_k xd(p,k)·wr(k,j)) + bias(j).
  * `logSoftmaxRows s`: each row minus its maximum, minus the logarithm of the sum of the exponentials of that
    difference. Entry (p, j) is (s(p,j) − M_p) − log Σ_j' exp(s(p,j') − M_p), M_p the fold of max over row p.
-/
import Idealize.ShloMosaic.PureOps
import Idealize.ShloMosaic.PureOps.Ideal.Laws
import Idealize.ShloMosaic.Lib.ValueIdx
import Idealize.ShloMosaic.Lib.ValueLayout
import Idealize.ShloMosaic.Lib.Pipeline.Value
import proofs.«154917_j5033701671208_2_alg».proof.Proof.LibRowSoftmax
import proofs.«154917_j5033701671208_2_alg».proof.Proof.SageSpec

noncomputable section

open scoped BigOperators

namespace Cert.Sage

open Idealize.ShloMosaic Idealize.ShloMosaic.ValueIdx Cert.RowSoftmax

section Terms

variable {F : FTy → Type} [FloatOps F] {a n b : ℕ}

/-- Every row of the sums times the reciprocal of its clamped count. -/
def meanRows (agg : FVec F ⟨2, ![a, n]⟩ .f32) (cnt : FVec F ⟨2, ![a, 1]⟩ .f32)
    (hb : (⟨2, ![a, 1]⟩ : Shape).Broadcasts ⟨2, ![a, n]⟩) : FVec F ⟨2, ![a, n]⟩ .f32 :=
  mulf agg (broadcastTo ⟨2, ![a, n]⟩
    (divf (broadcast ⟨2, ![a, 1]⟩ (Scalar.ofBits .f32 0x3F800000#32))
      (maximumf cnt (broadcast ⟨2, ![a, 1]⟩ (Scalar.ofBits .f32 0x3F800000#32)))) hb)

/-- mean · wl + xd · wr + bias. -/
def denseRows (d : DotDims ⟨2, ![a, n]⟩ ⟨2, ![n, b]⟩ ⟨2, ![a, b]⟩)
    (mean xd : FVec F ⟨2, ![a, n]⟩ .bf16) (wl wr : FVec F ⟨2, ![n, b]⟩ .bf16) (bias : FVec F ⟨1, ![b]⟩ .f32)
    (hc : (⟨1, ![b]⟩ : Shape).ShapeCasts ⟨2, ![1, b]⟩) (hbb : (⟨2, ![1, b]⟩ : Shape).Broadcasts ⟨2, ![a, b]⟩) :
    FVec F ⟨2, ![a, b]⟩ .f32 :=
  addf (addf (matmul d none mean wl (constant ⟨2, ![a, b]⟩ .f32 0x00000000#32))
             (matmul d none xd wr (constant ⟨2, ![a, b]⟩ .f32 0x00000000#32)))
       (broadcastTo ⟨2, ![a, b]⟩ (shapeCast ⟨2, ![1, b]⟩ bias hc) hbb)

/-- Each row minus its maximum. -/
def shiftRows (s : FVec F ⟨2, ![a, n]⟩ .f32)
    (hr : (⟨2, ![a, n]⟩ : Shape).Reduces [1] (⟨1, ![a]⟩ : Shape)) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  subf s (broadcastTo ⟨2, ![a, n]⟩
    (shapeCast ⟨2, ![a, 1]⟩ (multiReduction .maximumf [1] ⟨1, ![a]⟩ s 0xFF800000#32 hr hφ hmax) hc) hb)

/-- A matrix of shifted rows minus, in each row, the logarithm of the sum of its exponentials. -/
def logNormRows (z : FVec F ⟨2, ![a, n]⟩ .f32)
    (hr : (⟨2, ![a, n]⟩ : Shape).Reduces [1] (⟨1, ![a]⟩ : Shape)) (hφ : FKind.Formats .f32)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  subf z (broadcastTo ⟨2, ![a, n]⟩
    (log (shapeCast ⟨2, ![a, 1]⟩ (multiReduction .add [1] ⟨1, ![a]⟩ (exp z) 0x00000000#32 hr hφ hadd) hc)) hb)

end Terms

variable {a n b : ℕ}

/-- Entry (p, k) of the means. -/
theorem meanRows_apply (agg : FVec Ideal ⟨2, ![a, n]⟩ .f32) (cnt : FVec Ideal ⟨2, ![a, 1]⟩ .f32)
    (hb : (⟨2, ![a, 1]⟩ : Shape).Broadcasts ⟨2, ![a, n]⟩) (p : Fin a) (k : Fin n) :
    meanRows agg cnt hb (ix2 p k) = agg (ix2 p k) * Ideal.div one (max (cnt (ix2 p (0 : Fin 1))) one) := by
  unfold meanRows
  show agg (ix2 p k) * broadcastTo ⟨2, ![a, n]⟩ _ hb (ix2 p k) = _
  rw [column_broadcast_apply]
  rfl

/-- Entry (p, j) of the dense step. -/
theorem denseRows_apply (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    (mean xd : FVec Ideal ⟨2, ![a, n]⟩ .bf16) (wl wr : FVec Ideal ⟨2, ![n, b]⟩ .bf16) (bias : FVec Ideal ⟨1, ![b]⟩ .f32)
    (hc : (⟨1, ![b]⟩ : Shape).ShapeCasts ⟨2, ![1, b]⟩) (hbb : (⟨2, ![1, b]⟩ : Shape).Broadcasts ⟨2, ![a, b]⟩)
    (p : Fin a) (j : Fin b) :
    denseRows d mean xd wl wr bias hc hbb (ix2 p j)
      = (∑ k : Fin n, mean (ix2 p k) * wl (ix2 k j) + ∑ k : Fin n, xd (ix2 p k) * wr (ix2 k j)) + bias (ix1 j) := by
  unfold denseRows
  show (FloatOps.matmul d none mean wl (constant ⟨2, ![a, b]⟩ .f32 0x00000000#32) (ix2 p j)
        + FloatOps.matmul d none xd wr (constant ⟨2, ![a, b]⟩ .f32 0x00000000#32) (ix2 p j))
      + broadcastTo ⟨2, ![a, b]⟩ (shapeCast ⟨2, ![1, b]⟩ bias hc) hbb (ix2 p j) = _
  rw [matmul_rows_cols_apply d hr hs hlc hrc hl0 hr1, matmul_rows_cols_apply d hr hs hlc hrc hl0 hr1,
    broadcastTo_1b_ab_apply, shapeCast_a_1a_apply]

/-- The row maximum as the body computes it: the fold of max over the row, from the accumulator's value. -/
def rowMax (s : (⟨2, ![a, n]⟩ : Shape).Idx → EReal) (p : Fin a) : EReal :=
  (Finset.univ : Finset (Fin n)).fold max (Ideal.ofBits .f32 0xFF800000#32) (fun j' => s (ix2 p j'))

/-- Entry (p, j) of the shifted rows. -/
theorem shiftRows_apply (s : FVec Ideal ⟨2, ![a, n]⟩ .f32)
    (hr : (⟨2, ![a, n]⟩ : Shape).Reduces [1] (⟨1, ![a]⟩ : Shape)) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    shiftRows s hr hφ hmax hc hb (ix2 p j) = s (ix2 p j) - rowMax s p := by
  unfold shiftRows rowMax
  show s (ix2 p j) - broadcastTo ⟨2, ![a, n]⟩ _ hb (ix2 p j) = _
  rw [column_broadcast_apply, column_apply]
  refine congrArg (fun x => s (ix2 p j) - x) ?_
  exact (Ideal.multiReduction_maximumf_single s _ hr hφ hmax (ix1 p)).trans
    (congrArg (fun f => (Finset.univ : Finset (Fin n)).fold max (Ideal.ofBits .f32 0xFF800000#32) f)
      (funext fun k => congrArg s (row_lift hr p k)))

/-- Entry (p, j) of the normalised logarithms. -/
theorem logNormRows_apply (z : FVec Ideal ⟨2, ![a, n]⟩ .f32)
    (hr : (⟨2, ![a, n]⟩ : Shape).Reduces [1] (⟨1, ![a]⟩ : Shape)) (hφ : FKind.Formats .f32)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    logNormRows z hr hφ hadd hc hb (ix2 p j) = z (ix2 p j) - Ideal.log (∑ j' : Fin n, Ideal.exp (z (ix2 p j'))) := by
  unfold logNormRows
  show z (ix2 p j) - broadcastTo ⟨2, ![a, n]⟩ _ hb (ix2 p j) = _
  rw [column_broadcast_apply]
  show z (ix2 p j) - Ideal.log (shapeCast ⟨2, ![a, 1]⟩ _ hc (ix2 p (0 : Fin 1))) = _
  rw [column_apply]
  refine congrArg (fun x => z (ix2 p j) - Ideal.log x) ?_
  exact (Ideal.multiReduction_add_single (exp z) _ hr hφ hadd (ix1 p)).trans
    (Finset.sum_congr rfl fun k _ => congrArg (fun q => Ideal.exp (z q)) (row_lift hr p k))

end Cert.Sage

end
-- ==== Proof.LayerOneArray.lean ====
/-
  Layer one of the kernel, as one function of the arrays its region finds.

  The region runs ten grid points; point t takes rows 4096·t … 4096·t + 4095 of the neighbour sums [40960, 100], of the
  neighbour counts [40960, 1] and of the nodes' own features [40960, 100], the two whole weight matrices [100, 256] and the
  bias [256], and writes rows 4096·t … of the output [40960, 256]. Entry (r, j) of the output is
      max( (Σ_k (sum(r,k) · (1 / max(count(r), 1))) · Wl(k,j) + Σ_k own(r,k) · Wr(k,j)) + bias(j), 0 ),
  whatever the point that wrote it: the blocks tile the rows, so the output array is this one function (`array_eq`).
-/
import proofs.«154917_j5033701671208_2_alg».proof.Proof.Gen.KernelIdeal.Frame
import proofs.«154917_j5033701671208_2_alg».proof.Proof.DenseRows
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.LayerOne

open Cert.KernelIdeal Cert.KernelIdeal.Gen Cert.Sage
open Idealize.ShloMosaic Idealize.ShloMosaic.ValueIdx Idealize.ShloMosaic.TcCoe Idealize.SL.Sem
open Idealize.ShloMosaic.Pipeline (Dat)

/-- The product keeps the left factor's row … -/
theorem dot_lhs0 (i : S4096x256.Idx) (q : dot_S4096x100_S100x256_S4096x256_1_0_0_1_n_n.contr.Idx) : (dot_S4096x100_S100x256_S4096x256_1_0_0_1_n_n.lhsIdx i q 0).val = (i 0).val := by
  unfold DotDims.lhsIdx
  rw [dif_neg (show ¬(0 : Fin S4096x100.rank) ∈ dot_S4096x100_S100x256_S4096x256_1_0_0_1_n_n.lhsBatch by decide),
    dif_pos (show (0 : Fin S4096x100.rank) ∈ dot_S4096x100_S100x256_S4096x256_1_0_0_1_n_n.lhsNonContracting by decide)]
  rfl
/-- … and the right factor's column. -/
theorem dot_rhs1 (i : S4096x256.Idx) (q : dot_S4096x100_S100x256_S4096x256_1_0_0_1_n_n.contr.Idx) : (dot_S4096x100_S100x256_S4096x256_1_0_0_1_n_n.rhsIdx i q 1).val = (i 1).val := by
  unfold DotDims.rhsIdx
  rw [dif_neg (show ¬(1 : Fin S100x256.rank) ∈ dot_S4096x100_S100x256_S4096x256_1_0_0_1_n_n.rhsBatch by decide),
    dif_pos (show (1 : Fin S100x256.rank) ∈ dot_S4096x100_S100x256_S4096x256_1_0_0_1_n_n.rhsNonContracting by decide)]
  rfl

/-- Entry (p, j) of what the body stores, from the blocks it loads: the mean step, the dense step and the clamp at 0
    (the changes of float format are the identity on the extended reals). -/
theorem pay_apply (x0 : Vec Ideal S4096x100 .f32) (x1 : Vec Ideal S4096x1 .f32) (x2 : Vec Ideal S4096x100 .f32)
    (wl wr : Vec Ideal S100x256 .f32) (b : Vec Ideal S256 .f32) (p : Fin 4096) (j : Fin 256) :
    k0_pay1 (F := Ideal) x0 x1 x2 wl wr b (ix2 p j)
      = max (denseMul (fun k : Fin 100 => x0 (ix2 p k)) (x1 (ix2 p (0 : Fin 1))) (fun k : Fin 100 => x2 (ix2 p k))
          (fun k : Fin 100 => wl (ix2 k j)) (fun k : Fin 100 => wr (ix2 k j)) (b (ix1 j))) zero := by
  have hpay : k0_pay1 (F := Ideal) x0 x1 x2 wl wr b
      = truncf .bf16 (maximumf (denseRows dot_S4096x100_S100x256_S4096x256_1_0_0_1_n_n
          (truncf .bf16 (meanRows (shapeCast S4096x100 x0 shapeCasts_S4096x100_S4096x100)
            (shapeCast S4096x1 x1 shapeCasts_S4096x1_S4096x1) broadcasts_S4096x1_S4096x100) bitsLt_bf16_f32)
          (truncf .bf16 (shapeCast S4096x100 x2 shapeCasts_S4096x100_S4096x100) bitsLt_bf16_f32)
          (truncf .bf16 wl bitsLt_bf16_f32) (truncf .bf16 wr bitsLt_bf16_f32) b
          shapeCasts_S256_S1x256 broadcasts_S1x256_S4096x256)
        (broadcast S4096x256 (Scalar.ofBits .f32 0x00000000#32))) bitsLt_bf16_f32 := rfl
  rw [hpay]
  show max (denseRows (F := Ideal) dot_S4096x100_S100x256_S4096x256_1_0_0_1_n_n _ _ _ _ b shapeCasts_S256_S1x256 broadcasts_S1x256_S4096x256 (ix2 p j)) zero = _
  rw [denseRows_apply dot_S4096x100_S100x256_S4096x256_1_0_0_1_n_n rfl rfl rfl rfl dot_lhs0 dot_rhs1]
  unfold denseMul
  simp only [truncf_apply, meanRows_apply, shapeCast_self]

/-- The row and the column of an output index. -/
abbrev rowOf (i : S40960x256.Idx) : Fin 40960 := ⟨(i 0).val, (i 0).isLt⟩
abbrev colOf (i : S40960x256.Idx) : Fin 256 := ⟨(i 1).val, (i 1).isLt⟩

/-- Layer one's output as one function of the six arrays, entry by entry. -/
def layer (S : S40960x100.Idx → EReal) (Cn : S40960x1.Idx → EReal) (X : S40960x100.Idx → EReal)
    (Wl : S100x256.Idx → EReal) (B : S256.Idx → EReal) (Wr : S100x256.Idx → EReal) : S40960x256.Idx → EReal := fun i =>
  max (denseMul (fun k : Fin 100 => S (ix2 (rowOf i) k)) (Cn (ix2 (rowOf i) (0 : Fin 1)))
        (fun k : Fin 100 => X (ix2 (rowOf i) k)) (fun k : Fin 100 => Wl (ix2 k (colOf i)))
        (fun k : Fin 100 => Wr (ix2 k (colOf i))) (B (ix1 (colOf i)))) zero

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move together down the rows,
    one block per point; the weights and the bias stay at block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK is block t of the layer function of the arrays as the region finds them. -/
theorem flushed_eq (c : Dev nD) (t : Fin cfg0.N) :
    (dat0 V c).flushed 6 t = ((cfg0.win 6).blk t).view.read (Elt Ideal)
      (layer (V c main_v12) (V c main_v13) (V c main_v14) (V c main_arg1) (V c main_arg2) (V c main_arg3)) := by
  show (cfg0.win 6).cut (grid0.coords t) ((dat0 V c).after 6 t) = _
  rw [after0_6]
  unfold out0_6
  rw [View.canon_unit_zero hz2]
  simp only [View.ld_unit_zero (S := S4096x100) hz2, View.ld_unit_zero (S := S4096x1) hz2,
    View.ld_unit_zero (S := S100x256) hz2, View.ld_unit_zero (S := S256) hz1]
  obtain ⟨e00, e01, e10, e11, e20, e21, e30, e31, e40, e50, e51, e60, e61⟩ := idx_facts t
  funext y
  obtain ⟨p, j, rfl⟩ : ∃ (p : Fin 4096) (j : Fin 256), y = ix2 p j := ⟨y 0, y 1, eq_ix2 y⟩
  show k0_pay1 (F := Ideal) (iblk0 V c 0 t) (iblk0 V c 1 t) (iblk0 V c 2 t) (iblk0 V c 3 t) (iblk0 V c 5 t)
      (iblk0 V c 4 t) (ix2 p j)
    = layer (V c main_v12) (V c main_v13) (V c main_v14) (V c main_arg1) (V c main_arg2) (V c main_arg3)
        (((cfg0.win 6).blk t).view.emb (ix2 p j))
  refine (pay_apply (iblk0 V c 0 t) (iblk0 V c 1 t) (iblk0 V c 2 t) (iblk0 V c 3 t) (iblk0 V c 5 t)
    (iblk0 V c 4 t) p j).trans ?_
  unfold layer
  have hp : p.val < 4096 := p.isLt
  have hj : j.val < 256 := j.isLt
  have hS : (fun k : Fin 100 => iblk0 V c 0 t (ix2 p k))
      = fun k : Fin 100 => V c main_v12 (ix2 (rowOf (((cfg0.win 6).blk t).view.emb (ix2 p j))) k) := funext fun k => by
    have hk : k.val < 100 := k.isLt
    show V c (Pipeline.arrRef spec0 0) (((cfg0.win 0).blk t).view.emb (ix2 p k)) = _
    refine congrArg (V c main_v12) (funext fun a => Fin.ext ?_)
    match a with
    | ⟨0, _⟩ => show win0_0.index t (0 : Fin 2) * 4096 + 1 * p.val = win0_6.index t (0 : Fin 2) * 4096 + 1 * p.val; omega
    | ⟨1, _⟩ => show win0_0.index t (1 : Fin 2) * 100 + 1 * k.val = k.val; omega
  have hC : iblk0 V c 1 t (ix2 p (0 : Fin 1))
      = V c main_v13 (ix2 (rowOf (((cfg0.win 6).blk t).view.emb (ix2 p j))) (0 : Fin 1)) := by
    show V c (Pipeline.arrRef spec0 1) (((cfg0.win 1).blk t).view.emb (ix2 p (0 : Fin 1))) = _
    refine congrArg (V c main_v13) (funext fun a => Fin.ext ?_)
    match a with
    | ⟨0, _⟩ => show win0_1.index t (0 : Fin 2) * 4096 + 1 * p.val = win0_6.index t (0 : Fin 2) * 4096 + 1 * p.val; omega
    | ⟨1, _⟩ => show win0_1.index t (1 : Fin 2) * 1 + 1 * 0 = 0; omega
  have hX : (fun k : Fin 100 => iblk0 V c 2 t (ix2 p k))
      = fun k : Fin 100 => V c main_v14 (ix2 (rowOf (((cfg0.win 6).blk t).view.emb (ix2 p j))) k) := funext fun k => by
    have hk : k.val < 100 := k.isLt
    show V c (Pipeline.arrRef spec0 2) (((cfg0.win 2).blk t).view.emb (ix2 p k)) = _
    refine congrArg (V c main_v14) (funext fun a => Fin.ext ?_)
    match a with
    | ⟨0, _⟩ => show win0_2.index t (0 : Fin 2) * 4096 + 1 * p.val = win0_6.index t (0 : Fin 2) * 4096 + 1 * p.val; omega
    | ⟨1, _⟩ => show win0_2.index t (1 : Fin 2) * 100 + 1 * k.val = k.val; omega
  have hWl : (fun k : Fin 100 => iblk0 V c 3 t (ix2 k j))
      = fun k : Fin 100 => V c main_arg1 (ix2 k (colOf (((cfg0.win 6).blk t).view.emb (ix2 p j)))) := funext fun k => by
    have hk : k.val < 100 := k.isLt
    show V c (Pipeline.arrRef spec0 3) (((cfg0.win 3).blk t).view.emb (ix2 k j)) = _
    refine congrArg (V c main_arg1) (funext fun a => Fin.ext ?_)
    match a with
    | ⟨0, _⟩ => show win0_3.index t (0 : Fin 2) * 100 + 1 * k.val = k.val; omega
    | ⟨1, _⟩ => show win0_3.index t (1 : Fin 2) * 256 + 1 * j.val = win0_6.index t (1 : Fin 2) * 256 + 1 * j.val; omega
  have hWr : (fun k : Fin 100 => iblk0 V c 5 t (ix2 k j))
      = fun k : Fin 100 => V c main_arg3 (ix2 k (colOf (((cfg0.win 6).blk t).view.emb (ix2 p j)))) := funext fun k => by
    have hk : k.val < 100 := k.isLt
    show V c (Pipeline.arrRef spec0 5) (((cfg0.win 5).blk t).view.emb (ix2 k j)) = _
    refine congrArg (V c main_arg3) (funext fun a => Fin.ext ?_)
    match a with
    | ⟨0, _⟩ => show win0_5.index t (0 : Fin 2) * 100 + 1 * k.val = k.val; omega
    | ⟨1, _⟩ => show win0_5.index t (1 : Fin 2) * 256 + 1 * j.val = win0_6.index t (1 : Fin 2) * 256 + 1 * j.val; omega
  have hB : iblk0 V c 4 t (ix1 j) = V c main_arg2 (ix1 (colOf (((cfg0.win 6).blk t).view.emb (ix2 p j)))) := by
    show V c (Pipeline.arrRef spec0 4) (((cfg0.win 4).blk t).view.emb (ix1 j)) = _
    refine congrArg (V c main_arg2) (funext fun a => Fin.ext ?_)
    match a with
    | ⟨0, _⟩ => show win0_4.index t (0 : Fin 1) * 256 + 1 * j.val = win0_6.index t (1 : Fin 2) * 256 + 1 * j.val; omega
  rw [hS, hC, hX, hWl, hWr, hB]

/-- An index of the output array is in point t's block iff each coordinate is in the block's range on its axis. -/
theorem mem_blk (t : Fin cfg0.N) (i : S40960x256.Idx) :
    i ∈ ((cfg0.win 6).blk t).view.set ↔ ∀ a : Fin 2, win0_6.index t a * S4096x256.size a ≤ (i a).val
      ∧ (i a).val < win0_6.index t a * S4096x256.size a + S4096x256.size a := by
  show i ∈ ((View.whole main_v15).slice (win0_6.rect t)).set ↔ _
  rw [View.set_slice_whole, Rect.mem_set_unit]
  exact Iff.rfl

/-- Row r of the output lies in the block of point r / 4096: the ten blocks tile the rows. -/
theorem cover (i : S40960x256.Idx) :
    ∃ t : Fin cfg0.N, (cfg0.win 6).flush t = true ∧ i ∈ ((cfg0.win 6).blk t).view.set := by
  have hi0 : (i 0).val < 40960 := (i 0).isLt
  have hi1 : (i 1).val < 256 := (i 1).isLt
  obtain ⟨t, ht⟩ : ∃ t : Fin cfg0.N, t.val = (i 0).val / 4096 :=
    ⟨⟨(i 0).val / 4096, by show _ < grid0.N; rw [N_0]; omega⟩, rfl⟩
  obtain ⟨-, -, -, -, -, -, -, -, -, -, -, e60, e61⟩ := idx_facts t
  refine ⟨t, flush0_6 t, ?_⟩
  rw [mem_blk]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 256 ≤ (i 1).val ∧ (i 1).val < win0_6.index t (1 : Fin 2) * 256 + 256
    omega

/-- THE OUTPUT ARRAY after the region: the layer function of the arrays the region found. -/
theorem array_eq (c : Dev nD) :
    (dat0 V c).arrAt 6 cfg0.N
      = layer (V c main_v12) (V c main_v13) (V c main_v14) (V c main_arg1) (V c main_arg2) (V c main_arg3) :=
  (dat0 V c).arrAt_eq_of_cover 6 _ (fun t _ => flushed_eq V c t) cover

end Cert.KernelIdeal.LayerOne

end
-- ==== Proof.LayerTwoArray.lean ====
/-
  Layer two of the kernel, as one function of the arrays its region finds.

  The region runs two grid points; point t takes rows 2048·t … 2048·t + 2047 of the neighbour sums [4096, 256], of the
  neighbour counts [4096, 1] and of the hidden features of the nodes themselves [4096, 256], the two whole weight matrices
  [256, 47] and the bias [47], and writes rows 2048·t … of the output [4096, 47]. With
      acc(r, q) = (Σ_k (sum(r,k) · (1 / max(count(r), 1))) · Wl(k,q) + Σ_k own(r,k) · Wr(k,q)) + bias(q),
  entry (r, j) of the output is the log-softmax of row r of acc at column j. The two blocks tile the rows, so the output
  array is this one function (`array_eq`).
-/
import proofs.«154917_j5033701671208_2_alg».proof.Proof.Gen.KernelIdeal.Frame
import proofs.«154917_j5033701671208_2_alg».proof.Proof.DenseRows
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.LayerTwo

open Cert.KernelIdeal Cert.KernelIdeal.Gen Cert.Sage
open Idealize.ShloMosaic Idealize.ShloMosaic.ValueIdx Idealize.ShloMosaic.TcCoe Idealize.SL.Sem
open Idealize.ShloMosaic.Pipeline (Dat)

/-- The product keeps the left factor's row … -/
theorem dot_lhs0 (i : S2048x47.Idx) (q : dot_S2048x256_S256x47_S2048x47_1_0_0_1_n_n.contr.Idx) : (dot_S2048x256_S256x47_S2048x47_1_0_0_1_n_n.lhsIdx i q 0).val = (i 0).val := by
  unfold DotDims.lhsIdx
  rw [dif_neg (show ¬(0 : Fin S2048x256.rank) ∈ dot_S2048x256_S256x47_S2048x47_1_0_0_1_n_n.lhsBatch by decide),
    dif_pos (show (0 : Fin S2048x256.rank) ∈ dot_S2048x256_S256x47_S2048x47_1_0_0_1_n_n.lhsNonContracting by decide)]
  rfl
/-- … and the right factor's column. -/
theorem dot_rhs1 (i : S2048x47.Idx) (q : dot_S2048x256_S256x47_S2048x47_1_0_0_1_n_n.contr.Idx) : (dot_S2048x256_S256x47_S2048x47_1_0_0_1_n_n.rhsIdx i q 1).val = (i 1).val := by
  unfold DotDims.rhsIdx
  rw [dif_neg (show ¬(1 : Fin S256x47.rank) ∈ dot_S2048x256_S256x47_S2048x47_1_0_0_1_n_n.rhsBatch by decide),
    dif_pos (show (1 : Fin S256x47.rank) ∈ dot_S2048x256_S256x47_S2048x47_1_0_0_1_n_n.rhsNonContracting by decide)]
  rfl

/-- Entry (p, j) of what the body stores, from the blocks it loads: the mean step, the dense step and the row's
    log-softmax (the changes of float format are the identity on the extended reals). -/
theorem pay_apply (x0 : Vec Ideal S2048x256 .f32) (x1 : Vec Ideal S2048x1 .f32) (x2 : Vec Ideal S2048x256 .bf16)
    (wl wr : Vec Ideal S256x47 .f32) (b : Vec Ideal S47 .f32) (p : Fin 2048) (j : Fin 47) :
    k1_pay1 (F := Ideal) x0 x1 x2 wl wr b (ix2 p j)
      = logSoftmaxRow (fun q : Fin 47 => denseMul (fun k : Fin 256 => x0 (ix2 p k)) (x1 (ix2 p (0 : Fin 1)))
          (fun k : Fin 256 => x2 (ix2 p k)) (fun k : Fin 256 => wl (ix2 k q)) (fun k : Fin 256 => wr (ix2 k q))
          (b (ix1 q))) j := by
  have hmaxw : (0xFF800000#32 : BitVec 32) = FKind.maximumf.neutral .f32 (.inl rfl) := rfl
  have haddw : (0x00000000#32 : BitVec 32) = FKind.add.neutral .f32 (.inl rfl) := rfl
  have hpay : k1_pay1 (F := Ideal) x0 x1 x2 wl wr b
      = logNormRows (shiftRows (denseRows dot_S2048x256_S256x47_S2048x47_1_0_0_1_n_n
          (truncf .bf16 (meanRows (shapeCast S2048x256 x0 shapeCasts_S2048x256_S2048x256)
            (shapeCast S2048x1 x1 shapeCasts_S2048x1_S2048x1) broadcasts_S2048x1_S2048x256) bitsLt_bf16_f32)
          (shapeCast S2048x256 x2 shapeCasts_S2048x256_S2048x256)
          (truncf .bf16 wl bitsLt_bf16_f32) (truncf .bf16 wr bitsLt_bf16_f32) b
          shapeCasts_S47_S1x47 broadcasts_S1x47_S2048x47)
        reduces_S2048x47_S2048 (.inl rfl) hmaxw shapeCasts_S2048_S2048x1 broadcasts_S2048x1_S2048x47)
        reduces_S2048x47_S2048 (.inl rfl) haddw shapeCasts_S2048_S2048x1 broadcasts_S2048x1_S2048x47 := rfl
  rw [hpay, logNormRows_apply]
  simp only [shiftRows_apply]
  unfold rowMax logSoftmaxRow
  simp only [denseRows_apply dot_S2048x256_S256x47_S2048x47_1_0_0_1_n_n rfl rfl rfl rfl dot_lhs0 dot_rhs1]
  unfold denseMul
  simp only [truncf_apply, meanRows_apply, shapeCast_self]

/-- The row and the column of an output index. -/
abbrev rowOf (i : S4096x47.Idx) : Fin 4096 := ⟨(i 0).val, (i 0).isLt⟩
abbrev colOf (i : S4096x47.Idx) : Fin 47 := ⟨(i 1).val, (i 1).isLt⟩

/-- Layer two's output as one function of the six arrays, entry by entry. -/
def layer (S : S4096x256.Idx → EReal) (Cn : S4096x1.Idx → EReal) (X : S4096x256.Idx → EReal)
    (Wl : S256x47.Idx → EReal) (B : S47.Idx → EReal) (Wr : S256x47.Idx → EReal) : S4096x47.Idx → EReal := fun i =>
  logSoftmaxRow (fun q : Fin 47 => denseMul (fun k : Fin 256 => S (ix2 (rowOf i) k)) (Cn (ix2 (rowOf i) (0 : Fin 1)))
      (fun k : Fin 256 => X (ix2 (rowOf i) k)) (fun k : Fin 256 => Wl (ix2 k q)) (fun k : Fin 256 => Wr (ix2 k q))
      (B (ix1 q))) (colOf i)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs and the output move together down the rows,
    one block per point; the weights and the bias stay at block 0. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT t WRITES BACK is block t of the layer function of the arrays as the region finds them. -/
theorem flushed_eq (c : Dev nD) (t : Fin cfg1.N) :
    (dat1 V c).flushed 6 t = ((cfg1.win 6).blk t).view.read (Elt Ideal)
      (layer (V c main_v29) (V c main_v30) (V c main_v31) (V c main_arg4) (V c main_arg5) (V c main_arg6)) := by
  show (cfg1.win 6).cut (grid1.coords t) ((dat1 V c).after 6 t) = _
  rw [after1_6]
  unfold out1_6
  rw [View.canon_unit_zero hz2]
  simp only [View.ld_unit_zero (S := S2048x256) hz2, View.ld_unit_zero (S := S2048x1) hz2,
    View.ld_unit_zero (S := S256x47) hz2, View.ld_unit_zero (S := S47) hz1]
  obtain ⟨e00, e01, e10, e11, e20, e21, e30, e31, e40, e50, e51, e60, e61⟩ := idx_facts t
  funext y
  obtain ⟨p, j, rfl⟩ : ∃ (p : Fin 2048) (j : Fin 47), y = ix2 p j := ⟨y 0, y 1, eq_ix2 y⟩
  show k1_pay1 (F := Ideal) (iblk1 V c 0 t) (iblk1 V c 1 t) (iblk1 V c 2 t) (iblk1 V c 3 t) (iblk1 V c 5 t)
      (iblk1 V c 4 t) (ix2 p j)
    = layer (V c main_v29) (V c main_v30) (V c main_v31) (V c main_arg4) (V c main_arg5) (V c main_arg6)
        (((cfg1.win 6).blk t).view.emb (ix2 p j))
  refine (pay_apply (iblk1 V c 0 t) (iblk1 V c 1 t) (iblk1 V c 2 t) (iblk1 V c 3 t) (iblk1 V c 5 t)
    (iblk1 V c 4 t) p j).trans ?_
  unfold layer
  have hp : p.val < 2048 := p.isLt
  have hj : j.val < 47 := j.isLt
  have hcol : colOf (((cfg1.win 6).blk t).view.emb (ix2 p j)) = j := Fin.ext (by
    show win1_6.index t (1 : Fin 2) * 47 + 1 * j.val = j.val; omega)
  have hS : (fun k : Fin 256 => iblk1 V c 0 t (ix2 p k))
      = fun k : Fin 256 => V c main_v29 (ix2 (rowOf (((cfg1.win 6).blk t).view.emb (ix2 p j))) k) := funext fun k => by
    have hk : k.val < 256 := k.isLt
    show V c (Pipeline.arrRef spec1 0) (((cfg1.win 0).blk t).view.emb (ix2 p k)) = _
    refine congrArg (V c main_v29) (funext fun a => Fin.ext ?_)
    match a with
    | ⟨0, _⟩ => show win1_0.index t (0 : Fin 2) * 2048 + 1 * p.val = win1_6.index t (0 : Fin 2) * 2048 + 1 * p.val; omega
    | ⟨1, _⟩ => show win1_0.index t (1 : Fin 2) * 256 + 1 * k.val = k.val; omega
  have hC : iblk1 V c 1 t (ix2 p (0 : Fin 1))
      = V c main_v30 (ix2 (rowOf (((cfg1.win 6).blk t).view.emb (ix2 p j))) (0 : Fin 1)) := by
    show V c (Pipeline.arrRef spec1 1) (((cfg1.win 1).blk t).view.emb (ix2 p (0 : Fin 1))) = _
    refine congrArg (V c main_v30) (funext fun a => Fin.ext ?_)
    match a with
    | ⟨0, _⟩ => show win1_1.index t (0 : Fin 2) * 2048 + 1 * p.val = win1_6.index t (0 : Fin 2) * 2048 + 1 * p.val; omega
    | ⟨1, _⟩ => show win1_1.index t (1 : Fin 2) * 1 + 1 * 0 = 0; omega
  have hX : (fun k : Fin 256 => iblk1 V c 2 t (ix2 p k))
      = fun k : Fin 256 => V c main_v31 (ix2 (rowOf (((cfg1.win 6).blk t).view.emb (ix2 p j))) k) := funext fun k => by
    have hk : k.val < 256 := k.isLt
    show V c (Pipeline.arrRef spec1 2) (((cfg1.win 2).blk t).view.emb (ix2 p k)) = _
    refine congrArg (V c main_v31) (funext fun a => Fin.ext ?_)
    match a with
    | ⟨0, _⟩ => show win1_2.index t (0 : Fin 2) * 2048 + 1 * p.val = win1_6.index t (0 : Fin 2) * 2048 + 1 * p.val; omega
    | ⟨1, _⟩ => show win1_2.index t (1 : Fin 2) * 256 + 1 * k.val = k.val; omega
  have hWl : ∀ q : Fin 47, (fun k : Fin 256 => iblk1 V c 3 t (ix2 k q)) = fun k : Fin 256 => V c main_arg4 (ix2 k q) :=
    fun q => funext fun k => by
    have hk : k.val < 256 := k.isLt
    have hq : q.val < 47 := q.isLt
    show V c (Pipeline.arrRef spec1 3) (((cfg1.win 3).blk t).view.emb (ix2 k q)) = _
    refine congrArg (V c main_arg4) (funext fun a => Fin.ext ?_)
    match a with
    | ⟨0, _⟩ => show win1_3.index t (0 : Fin 2) * 256 + 1 * k.val = k.val; omega
    | ⟨1, _⟩ => show win1_3.index t (1 : Fin 2) * 47 + 1 * q.val = q.val; omega
  have hWr : ∀ q : Fin 47, (fun k : Fin 256 => iblk1 V c 5 t (ix2 k q)) = fun k : Fin 256 => V c main_arg6 (ix2 k q) :=
    fun q => funext fun k => by
    have hk : k.val < 256 := k.isLt
    have hq : q.val < 47 := q.isLt
    show V c (Pipeline.arrRef spec1 5) (((cfg1.win 5).blk t).view.emb (ix2 k q)) = _
    refine congrArg (V c main_arg6) (funext fun a => Fin.ext ?_)
    match a with
    | ⟨0, _⟩ => show win1_5.index t (0 : Fin 2) * 256 + 1 * k.val = k.val; omega
    | ⟨1, _⟩ => show win1_5.index t (1 : Fin 2) * 47 + 1 * q.val = q.val; omega
  have hB : ∀ q : Fin 47, iblk1 V c 4 t (ix1 q) = V c main_arg5 (ix1 q) := fun q => by
    have hq : q.val < 47 := q.isLt
    show V c (Pipeline.arrRef spec1 4) (((cfg1.win 4).blk t).view.emb (ix1 q)) = _
    refine congrArg (V c main_arg5) (funext fun a => Fin.ext ?_)
    match a with
    | ⟨0, _⟩ => show win1_4.index t (0 : Fin 1) * 47 + 1 * q.val = q.val; omega
  rw [hcol, hS, hC, hX]
  simp only [hWl, hWr, hB]

/-- An index of the output array is in point t's block iff each coordinate is in the block's range on its axis. -/
theorem mem_blk (t : Fin cfg1.N) (i : S4096x47.Idx) :
    i ∈ ((cfg1.win 6).blk t).view.set ↔ ∀ a : Fin 2, win1_6.index t a * S2048x47.size a ≤ (i a).val
      ∧ (i a).val < win1_6.index t a * S2048x47.size a + S2048x47.size a := by
  show i ∈ ((View.whole main_v32).slice (win1_6.rect t)).set ↔ _
  rw [View.set_slice_whole, Rect.mem_set_unit]
  exact Iff.rfl

/-- Row r of the output lies in the block of point r / 2048: the two blocks tile the rows. -/
theorem cover (i : S4096x47.Idx) :
    ∃ t : Fin cfg1.N, (cfg1.win 6).flush t = true ∧ i ∈ ((cfg1.win 6).blk t).view.set := by
  have hi0 : (i 0).val < 4096 := (i 0).isLt
  have hi1 : (i 1).val < 47 := (i 1).isLt
  obtain ⟨t, ht⟩ : ∃ t : Fin cfg1.N, t.val = (i 0).val / 2048 :=
    ⟨⟨(i 0).val / 2048, by show _ < grid1.N; rw [N_1]; omega⟩, rfl⟩
  obtain ⟨-, -, -, -, -, -, -, -, -, -, -, e60, e61⟩ := idx_facts t
  refine ⟨t, flush1_6 t, ?_⟩
  rw [mem_blk]
  intro a
  match a with
  | ⟨0, _⟩ =>
    show win1_6.index t (0 : Fin 2) * 2048 ≤ (i 0).val ∧ (i 0).val < win1_6.index t (0 : Fin 2) * 2048 + 2048
    omega
  | ⟨1, _⟩ =>
    show win1_6.index t (1 : Fin 2) * 47 ≤ (i 1).val ∧ (i 1).val < win1_6.index t (1 : Fin 2) * 47 + 47
    omega

/-- THE OUTPUT ARRAY after the region: the layer function of the arrays the region found. -/
theorem array_eq (c : Dev nD) :
    (dat1 V c).arrAt 6 cfg1.N
      = layer (V c main_v29) (V c main_v30) (V c main_v31) (V c main_arg4) (V c main_arg5) (V c main_arg6) :=
  (dat1 V c).arrAt_eq_of_cover 6 _ (fun t _ => flushed_eq V c t) cover

end Cert.KernelIdeal.LayerTwo

end
-- ==== Proof.KernelValue.lean ====
/-
  The kernel program's result as one function of its arguments, on the extended reals.

  Layer one. The source row numbers are wrapped (a negative one has the table's height added), the rows of x at those
  numbers are gathered into the messages [E1, 100], a column of ones is joined on the right, and the joined rows are
  added into the rows of a zero array [40960, 101] that the destination numbers name; the left hundred columns of that array
  are the neighbour sums, its last column the neighbour counts, the first 40960 rows of x the nodes' own features. The first
  region turns these and the first layer's weights into the hidden features `hidden` (LayerOneArray).
  Layer two does the same with the hidden features in place of x (gathered rows widened from bf16 to f32, which changes
  nothing here), 257 columns, 4096 destination rows and the second layer's weights; the second region turns them into
  the result `out` (LayerTwoArray). `result_eq` reads the run's last boundary at the result buffer as `out` of the launch
  contents of the eleven arguments.
-/
import proofs.«154917_j5033701671208_2_alg».proof.Proof.LayerOneArray
import proofs.«154917_j5033701671208_2_alg».proof.Proof.LayerTwoArray
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

section Terms

variable {F : FTy → Type} [FloatOps F]

/-- Layer one's source row numbers, negative ones wrapped, as a column. -/
def wrap1 (src : (⟨S1024000, .i32⟩ : BufTy).Contents (Elt F)) : (⟨S1024000x1, .i32⟩ : BufTy).Contents (Elt F) :=
  broadcastInDim S1024000x1 ![0] bcast_S1024000_S1024000x1_0
    (select (cmpi .slt src (broadcastInDim S1024000 ![] bcast_S_S1024000 (constantI S_ 32 0#32)))
      (addi src (broadcastInDim S1024000 ![] bcast_S_S1024000 (constantI S_ 32 1000000#32))) src)

/-- Layer one's messages: the rows of x at the source numbers. -/
def msg1 (x : (⟨S1000000x100, .f32⟩ : BufTy).Contents (Elt F)) (src : (⟨S1024000, .i32⟩ : BufTy).Contents (Elt F)) : (⟨S1024000x100, .f32⟩ : BufTy).Contents (Elt F) :=
  Host.gather gather_S1000000x100_S1024000x1_S1024000x100_1_0_n_n_0_1_1100 x (wrap1 src)

/-- A column of ones, one per edge of layer one. -/
def ones1 : (⟨S1024000x1, .f32⟩ : BufTy).Contents (Elt F) := broadcastInDim S1024000x1 ![] bcast_S_S1024000x1 (constant S_ .f32 0x3F800000#32)

/-- Layer one's destination numbers as a column. -/
def dstCol1 (dst : (⟨S1024000, .i32⟩ : BufTy).Contents (Elt F)) : (⟨S1024000x1, .i32⟩ : BufTy).Contents (Elt F) :=
  broadcastInDim S1024000x1 ![0] bcast_S1024000_S1024000x1_0 dst

/-- The messages with the ones column joined on, added into the destination rows of a zero array. -/
def seg1 (x : (⟨S1000000x100, .f32⟩ : BufTy).Contents (Elt F)) (src dst : (⟨S1024000, .i32⟩ : BufTy).Contents (Elt F)) : (⟨S40960x101, .f32⟩ : BufTy).Contents (Elt F) :=
  Host.scatterAdd scatter_S40960x101_S1024000x1_S1024000x101_1_0_0_1
    (broadcastInDim S40960x101 ![] bcast_S_S40960x101 (constant S_ .f32 0x00000000#32)) (dstCol1 dst)
    (concatenate S1024000x101 1 [⟨S1024000x100, msg1 x src⟩, ⟨S1024000x1, ones1⟩]
      concatenates_S1024000x100_S1024000x1_S1024000x101_d1)

/-- Layer one's neighbour sums, neighbour counts and own features. -/
def sum1 (x : (⟨S1000000x100, .f32⟩ : BufTy).Contents (Elt F)) (src dst : (⟨S1024000, .i32⟩ : BufTy).Contents (Elt F)) : (⟨S40960x100, .f32⟩ : BufTy).Contents (Elt F) :=
  extractStridedSlice S40960x100 ![0, 0] (seg1 x src dst) slices_S40960x101_S40960x100_0_0
def cnt1 (x : (⟨S1000000x100, .f32⟩ : BufTy).Contents (Elt F)) (src dst : (⟨S1024000, .i32⟩ : BufTy).Contents (Elt F)) : (⟨S40960x1, .f32⟩ : BufTy).Contents (Elt F) :=
  extractStridedSlice S40960x1 ![0, 100] (seg1 x src dst) slices_S40960x101_S40960x1_0_100
def own1 (x : (⟨S1000000x100, .f32⟩ : BufTy).Contents (Elt F)) : (⟨S40960x100, .f32⟩ : BufTy).Contents (Elt F) :=
  extractStridedSlice S40960x100 ![0, 0] x slices_S1000000x100_S40960x100_0_0

/-- Layer two's source row numbers, negative ones wrapped, as a column. -/
def wrap2 (src : (⟨S40960, .i32⟩ : BufTy).Contents (Elt F)) : (⟨S40960x1, .i32⟩ : BufTy).Contents (Elt F) :=
  broadcastInDim S40960x1 ![0] bcast_S40960_S40960x1_0
    (select (cmpi .slt src (broadcastInDim S40960 ![] bcast_S_S40960 (constantI S_ 32 0#32)))
      (addi src (broadcastInDim S40960 ![] bcast_S_S40960 (constantI S_ 32 40960#32))) src)

/-- Layer two's messages: the rows of the hidden features at the source numbers, widened to f32. -/
def msg2 (h : (⟨S40960x256, .bf16⟩ : BufTy).Contents (Elt F)) (src : (⟨S40960, .i32⟩ : BufTy).Contents (Elt F)) : (⟨S40960x256, .f32⟩ : BufTy).Contents (Elt F) :=
  extf .f32 (Host.gather gather_S40960x256_S40960x1_S40960x256_1_0_n_n_0_1_1256 h (wrap2 src)) bitsLt_bf16_f32

/-- A column of ones, one per edge of layer two. -/
def ones2 : (⟨S40960x1, .f32⟩ : BufTy).Contents (Elt F) := broadcastInDim S40960x1 ![] bcast_S_S40960x1 (constant S_ .f32 0x3F800000#32)

/-- Layer two's destination numbers as a column. -/
def dstCol2 (dst : (⟨S40960, .i32⟩ : BufTy).Contents (Elt F)) : (⟨S40960x1, .i32⟩ : BufTy).Contents (Elt F) :=
  broadcastInDim S40960x1 ![0] bcast_S40960_S40960x1_0 dst

/-- The messages with the ones column joined on, added into the destination rows of a zero array. -/
def seg2 (h : (⟨S40960x256, .bf16⟩ : BufTy).Contents (Elt F)) (src dst : (⟨S40960, .i32⟩ : BufTy).Contents (Elt F)) : (⟨S4096x257, .f32⟩ : BufTy).Contents (Elt F) :=
  Host.scatterAdd scatter_S4096x257_S40960x1_S40960x257_1_0_0_1
    (broadcastInDim S4096x257 ![] bcast_S_S4096x257 (constant S_ .f32 0x00000000#32)) (dstCol2 dst)
    (concatenate S40960x257 1 [⟨S40960x256, msg2 h src⟩, ⟨S40960x1, ones2⟩]
      concatenates_S40960x256_S40960x1_S40960x257_d1)

/-- Layer two's neighbour sums, neighbour counts and own features. -/
def sum2 (h : (⟨S40960x256, .bf16⟩ : BufTy).Contents (Elt F)) (src dst : (⟨S40960, .i32⟩ : BufTy).Contents (Elt F)) : (⟨S4096x256, .f32⟩ : BufTy).Contents (Elt F) :=
  extractStridedSlice S4096x256 ![0, 0] (seg2 h src dst) slices_S4096x257_S4096x256_0_0
def cnt2 (h : (⟨S40960x256, .bf16⟩ : BufTy).Contents (Elt F)) (src dst : (⟨S40960, .i32⟩ : BufTy).Contents (Elt F)) : (⟨S4096x1, .f32⟩ : BufTy).Contents (Elt F) :=
  extractStridedSlice S4096x1 ![0, 256] (seg2 h src dst) slices_S4096x257_S4096x1_0_256
def own2 (h : (⟨S40960x256, .bf16⟩ : BufTy).Contents (Elt F)) : (⟨S4096x256, .bf16⟩ : BufTy).Contents (Elt F) :=
  extractStridedSlice S4096x256 ![0, 0] h slices_S40960x256_S4096x256_0_0

end Terms

/-- The hidden features: layer one of the first six arguments and the first pair of edge lists. -/
def hidden (a0 : S1000000x100.Idx → EReal) (a1 : S100x256.Idx → EReal) (a2 : S256.Idx → EReal) (a3 : S100x256.Idx → EReal)
    (a7 a8 : S1024000.Idx → BitVec 32) : S40960x256.Idx → EReal :=
  LayerOne.layer (sum1 (F := Ideal) a0 a7 a8) (cnt1 (F := Ideal) a0 a7 a8) (own1 (F := Ideal) a0) a1 a2 a3

/-- The result: layer two of the hidden features, the second layer's weights and the second pair of edge lists. -/
def out (a0 : S1000000x100.Idx → EReal) (a1 : S100x256.Idx → EReal) (a2 : S256.Idx → EReal) (a3 : S100x256.Idx → EReal)
    (a4 : S256x47.Idx → EReal) (a5 : S47.Idx → EReal) (a6 : S256x47.Idx → EReal)
    (a7 a8 : S1024000.Idx → BitVec 32) (a9 a10 : S40960.Idx → BitVec 32) : S4096x47.Idx → EReal :=
  LayerTwo.layer (sum2 (F := Ideal) (hidden a0 a1 a2 a3 a7 a8) a9 a10) (cnt2 (F := Ideal) (hidden a0 a1 a2 a3 a7 a8) a9 a10)
    (own2 (F := Ideal) (hidden a0 a1 a2 a3 a7 a8)) a4 a5 a6

variable (m : (ℓ : Loc nD τ sig) → Buf (Elt Ideal) ℓ) (ρ : Dev nD → PrngReg) (c : Dev nD)

/-! ## The first region's arrays as it finds them -/

theorem V1_v12 : V1 m ρ c main_v12 = sum1 (F := Ideal) (m ((c : Thread nD τ).loc main_arg0)) (m ((c : Thread nD τ).loc main_arg7)) (m ((c : Thread nD τ).loc main_arg8)) := by
  show StableHlo.after hostOps0 (W0 m ρ c) (Proc.devRef .tc main_v12) = _
  after_results; rfl
theorem V1_v13 : V1 m ρ c main_v13 = cnt1 (F := Ideal) (m ((c : Thread nD τ).loc main_arg0)) (m ((c : Thread nD τ).loc main_arg7)) (m ((c : Thread nD τ).loc main_arg8)) := by
  show StableHlo.after hostOps0 (W0 m ρ c) (Proc.devRef .tc main_v13) = _
  after_results; rfl
theorem V1_v14 : V1 m ρ c main_v14 = own1 (F := Ideal) (m ((c : Thread nD τ).loc main_arg0)) := by
  show StableHlo.after hostOps0 (W0 m ρ c) (Proc.devRef .tc main_v14) = _
  after_results; rfl
theorem V1_arg1 : V1 m ρ c main_arg1 = (m ((c : Thread nD τ).loc main_arg1)) := by
  show StableHlo.after hostOps0 (W0 m ρ c) (Proc.devRef .tc main_arg1) = _
  after_results
theorem V1_arg2 : V1 m ρ c main_arg2 = (m ((c : Thread nD τ).loc main_arg2)) := by
  show StableHlo.after hostOps0 (W0 m ρ c) (Proc.devRef .tc main_arg2) = _
  after_results
theorem V1_arg3 : V1 m ρ c main_arg3 = (m ((c : Thread nD τ).loc main_arg3)) := by
  show StableHlo.after hostOps0 (W0 m ρ c) (Proc.devRef .tc main_arg3) = _
  after_results

/-- After the first region its output buffer holds the hidden features. -/
theorem W2_v15 : W2 m ρ c (Proc.devRef .tc main_v15)
    = hidden (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W2_arr m ρ c 6).trans ?_
  rw [LayerOne.array_eq (V1 m ρ) c, V1_v12, V1_v13, V1_v14, V1_arg1, V1_arg2, V1_arg3]
  rfl

/-- The first region leaves the later arguments alone, and so did the first stretch of host operations. -/
theorem W2_arg (a : Ref sig .tc) (ha : ∀ w, Pipeline.arrRef spec0 w ≠ a)
    (h0 : StableHlo.after hostOps0 (W0 m ρ c) (Proc.devRef .tc a) = m ((c : Thread nD τ).loc a)) :
    W2 m ρ c (Proc.devRef .tc a) = m ((c : Thread nD τ).loc a) :=
  (W2_of_ne m ρ c a ha).trans h0

theorem W2_arg9 : W2 m ρ c (Proc.devRef .tc main_arg9) = (m ((c : Thread nD τ).loc main_arg9)) :=
  W2_arg m ρ c main_arg9 (by decide) (by after_results)
theorem W2_arg10 : W2 m ρ c (Proc.devRef .tc main_arg10) = (m ((c : Thread nD τ).loc main_arg10)) :=
  W2_arg m ρ c main_arg10 (by decide) (by after_results)
theorem W2_arg4 : W2 m ρ c (Proc.devRef .tc main_arg4) = (m ((c : Thread nD τ).loc main_arg4)) :=
  W2_arg m ρ c main_arg4 (by decide) (by after_results)
theorem W2_arg5 : W2 m ρ c (Proc.devRef .tc main_arg5) = (m ((c : Thread nD τ).loc main_arg5)) :=
  W2_arg m ρ c main_arg5 (by decide) (by after_results)
theorem W2_arg6 : W2 m ρ c (Proc.devRef .tc main_arg6) = (m ((c : Thread nD τ).loc main_arg6)) :=
  W2_arg m ρ c main_arg6 (by decide) (by after_results)

/-! ## The second region's arrays as it finds them -/

theorem V3_v29 : V3 m ρ c main_v29 = sum2 (F := Ideal) (W2 m ρ c (Proc.devRef .tc main_v15))
    (W2 m ρ c (Proc.devRef .tc main_arg9)) (W2 m ρ c (Proc.devRef .tc main_arg10)) := by
  show StableHlo.after hostOps1 (W2 m ρ c) (Proc.devRef .tc main_v29) = _
  after_results; rfl
theorem V3_v30 : V3 m ρ c main_v30 = cnt2 (F := Ideal) (W2 m ρ c (Proc.devRef .tc main_v15))
    (W2 m ρ c (Proc.devRef .tc main_arg9)) (W2 m ρ c (Proc.devRef .tc main_arg10)) := by
  show StableHlo.after hostOps1 (W2 m ρ c) (Proc.devRef .tc main_v30) = _
  after_results; rfl
theorem V3_v31 : V3 m ρ c main_v31 = own2 (F := Ideal) (W2 m ρ c (Proc.devRef .tc main_v15)) := by
  show StableHlo.after hostOps1 (W2 m ρ c) (Proc.devRef .tc main_v31) = _
  after_results; rfl
theorem V3_arg4 : V3 m ρ c main_arg4 = W2 m ρ c (Proc.devRef .tc main_arg4) := by
  show StableHlo.after hostOps1 (W2 m ρ c) (Proc.devRef .tc main_arg4) = _
  after_results
theorem V3_arg5 : V3 m ρ c main_arg5 = W2 m ρ c (Proc.devRef .tc main_arg5) := by
  show StableHlo.after hostOps1 (W2 m ρ c) (Proc.devRef .tc main_arg5) = _
  after_results
theorem V3_arg6 : V3 m ρ c main_arg6 = W2 m ρ c (Proc.devRef .tc main_arg6) := by
  show StableHlo.after hostOps1 (W2 m ρ c) (Proc.devRef .tc main_arg6) = _
  after_results

/-- THE RESULT BUFFER at the run's last boundary: `out` of the arguments' launch contents. -/
theorem result_eq : W4 m ρ c (Proc.devRef .tc main_v32)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ?_
  rw [LayerTwo.array_eq (V3 m ρ) c, V3_v29, V3_v30, V3_v31, V3_arg4, V3_arg5, V3_arg6,
    W2_v15, W2_arg9, W2_arg10, W2_arg4, W2_arg5, W2_arg6]
  rfl

end Cert.KernelIdeal.Result

end
-- ==== Proof.LibRowScatter.lean ====
/-
  The row scatter-add that a segment sum lowers to, on the extended reals, read at an element.

  The operand is an [R, C] array, the scatter indices an [E, 1] column of signed words, the updates an [E, C] array;
  update row e is added into operand row (index e), column by column, and is dropped when that row number is
  negative or not below R. So entry (r, k) of the result is the operand's entry plus the sum, over the update rows e
  whose index is r, of the update's entry (e, k):  out(r,k) = x(r,k) + Σ_e [idx e = r] · U(e,k).
  Two such scatters through the same indices agree at matching entries when their operands and the update columns do
  (`rowScatter_congr`), and a scatter of a constant real column into a zero column is real at every row
  (`rowScatter_count_real`). Generic in the extents; the dimension numbers are the literal ones of such a scatter.
-/
import Idealize.ShloMosaic.PureOps.Ideal
import Idealize.ShloMosaic.PureOps.Ideal.Laws
import Idealize.ShloMosaic.Lib.ValueIdx
import Idealize.ShloMosaic.Lib.Pipeline.Value
import Mathlib.Algebra.BigOperators.Group.Finset.Piecewise

noncomputable section

open scoped BigOperators

namespace Cert.SegmentSum

open Idealize.ShloMosaic Idealize.ShloMosaic.ValueIdx

variable {R C E w : ℕ}

/-- The dimension numbers of a row scatter: update axis 1 is the window, operand axis 0 is indexed. -/
abbrev rowDims (wf : ScatterDims.WF (⟨2, ![R, C]⟩ : Shape) (⟨2, ![E, 1]⟩ : Shape) (⟨2, ![E, C]⟩ : Shape) [1] [0] [0] 1) :
    ScatterDims (⟨2, ![R, C]⟩ : Shape) (⟨2, ![E, 1]⟩ : Shape) (⟨2, ![E, C]⟩ : Shape) :=
  ⟨[1], [0], [0], 1, wf⟩

variable (wf : ScatterDims.WF (⟨2, ![R, C]⟩ : Shape) (⟨2, ![E, 1]⟩ : Shape) (⟨2, ![E, C]⟩ : Shape) [1] [0] [0] 1)

theorem start_zero (j : (⟨2, ![E, C]⟩ : Shape).Idx) (idx : IVec (⟨2, ![E, 1]⟩ : Shape) w) :
    (rowDims wf).start j idx 0 = (idx (ix2 (j 0) (0 : Fin 1))).toInt := by
  unfold ScatterDims.start
  rw [dif_pos (show ((0 : Fin 2) ∈ ([0] : List (Fin 2))) by decide)]
  refine congrArg (fun q => (idx q).toInt) ?_
  funext b; apply Fin.ext
  match b with
  | ⟨0, _⟩ => rfl
  | ⟨1, _⟩ => rfl

theorem start_one (j : (⟨2, ![E, C]⟩ : Shape).Idx) (idx : IVec (⟨2, ![E, 1]⟩ : Shape) w) :
    (rowDims wf).start j idx 1 = 0 := by
  unfold ScatterDims.start
  rw [dif_neg (show ¬ ((1 : Fin 2) ∈ ([0] : List (Fin 2))) by decide)]

theorem window_zero (j : (⟨2, ![E, C]⟩ : Shape).Idx) : (rowDims wf).window j 0 = 0 := by
  have h0 : ¬ ((0 : Fin 2) ∈ (rowDims wf).sKept) := show ¬ ((0 : Fin 2) ∈ ([1] : List (Fin 2))) by decide
  unfold ScatterDims.window
  exact dif_neg h0

theorem window_one (j : (⟨2, ![E, C]⟩ : Shape).Idx) : (rowDims wf).window j 1 = (j 1).val := by
  have h1 : (1 : Fin 2) ∈ (rowDims wf).sKept := show ((1 : Fin 2) ∈ ([1] : List (Fin 2))) by decide
  unfold ScatterDims.window
  exact (dif_pos h1).trans rfl

/-- Update (e, c) lands on operand entry (r, k) exactly when row e's index, read signed, is r and c is k. -/
theorem resultIdx_iff (j : (⟨2, ![E, C]⟩ : Shape).Idx) (idx : IVec (⟨2, ![E, 1]⟩ : Shape) w) (r : Fin R) (k : Fin C) :
    (rowDims wf).resultIdx? j idx = some (ix2 r k)
      ↔ (idx (ix2 (j 0) (0 : Fin 1))).toInt = (r.val : ℤ) ∧ (j 1).val = k.val := by
  have hstart0 := start_zero wf j idx
  have hstart1 := start_one wf j idx
  have hwin0 := window_zero wf j
  have hwin1 := window_one wf j
  unfold ScatterDims.resultIdx?
  constructor
  · intro h
    split at h
    · rename_i hall
      have hf := Option.some.inj h
      have e0 : ((rowDims wf).start j idx 0 + ((rowDims wf).window j 0 : ℤ)).toNat = r.val :=
        congrArg (fun f => (f 0).val) hf
      have e1 : ((rowDims wf).start j idx 1 + ((rowDims wf).window j 1 : ℤ)).toNat = k.val :=
        congrArg (fun f => (f 1).val) hf
      have a0 := (hall 0).1
      rw [hstart0, hwin0] at e0 a0
      rw [hstart1, hwin1] at e1
      constructor <;> omega
    · exact absurd h (by simp)
  · rintro ⟨hT, hk⟩
    have hr := r.isLt
    have hkk := k.isLt
    split
    · refine congrArg some (funext fun a => Fin.ext ?_)
      match a with
      | ⟨0, _⟩ =>
        show ((rowDims wf).start j idx 0 + ((rowDims wf).window j 0 : ℤ)).toNat = r.val
        rw [hstart0, hwin0, hT]; omega
      | ⟨1, _⟩ =>
        show ((rowDims wf).start j idx 1 + ((rowDims wf).window j 1 : ℤ)).toNat = k.val
        rw [hstart1, hwin1]; omega
    · rename_i hall
      refine absurd (fun a => ?_) hall
      match a with
      | ⟨0, _⟩ =>
        show 0 ≤ (rowDims wf).start j idx 0 + ((rowDims wf).window j 0 : ℤ)
          ∧ (rowDims wf).start j idx 0 + ((rowDims wf).window j 0 : ℤ) < (R : ℤ)
        rw [hstart0, hwin0, hT]; omega
      | ⟨1, _⟩ =>
        show 0 ≤ (rowDims wf).start j idx 1 + ((rowDims wf).window j 1 : ℤ)
          ∧ (rowDims wf).start j idx 1 + ((rowDims wf).window j 1 : ℤ) < (C : ℤ)
        rw [hstart1, hwin1]; omega

/-- The segment sum of column k of the updates into row r: the rows whose index is r, added up. -/
def segSum (idx : IVec (⟨2, ![E, 1]⟩ : Shape) w) (U : (⟨2, ![E, C]⟩ : Shape).Idx → EReal) (r : ℕ) (k : Fin C) : EReal :=
  ∑ e : Fin E, if (idx (ix2 e (0 : Fin 1))).toInt = (r : ℤ) then U (ix2 e k) else 0

/-- A ROW SCATTER-ADD READ AT (r, k): the operand's entry plus the segment sum of the updates' column k into row r. -/
theorem rowScatter_apply (x : (⟨2, ![R, C]⟩ : Shape).Idx → EReal) (idx : IVec (⟨2, ![E, 1]⟩ : Shape) w)
    (U : (⟨2, ![E, C]⟩ : Shape).Idx → EReal) (r : Fin R) (k : Fin C) :
    (Host.scatterAdd (F := Ideal) (φ := .f32) (rowDims wf) x idx U : (⟨2, ![R, C]⟩ : Shape).Idx → EReal) (ix2 r k)
      = x (ix2 r k) + segSum idx U r.val k := by
  show Ideal.hostScatterAdd (rowDims wf) x idx U (ix2 r k) = _
  unfold Ideal.hostScatterAdd
  refine congrArg (x (ix2 r k) + ·) ?_
  rw [Finset.sum_filter, sum_idx2]
  unfold segSum
  refine Finset.sum_congr rfl fun e _ => ?_
  by_cases hT : (idx (ix2 e (0 : Fin 1))).toInt = (r.val : ℤ)
  · rw [if_pos hT, Finset.sum_eq_single k]
    · exact if_pos ((resultIdx_iff wf (ix2 e k) idx r k).mpr ⟨hT, rfl⟩)
    · intro c _ hc
      exact if_neg (fun h => hc (Fin.ext ((resultIdx_iff wf (ix2 e c) idx r k).mp h).2))
    · intro h
      exact absurd (Finset.mem_univ k) h
  · rw [if_neg hT]
    exact Finset.sum_eq_zero fun c _ => if_neg (fun h => hT ((resultIdx_iff wf (ix2 e c) idx r k).mp h).1)

/-- Two row scatter-adds through the same indices agree at entries (r, k') and (r, k) whenever their operands agree
    there and column k' of the one's updates is column k of the other's: a scatter of rows with a column joined on,
    read at a column of the original, is the scatter of the original rows. -/
theorem rowScatter_congr {C' : ℕ}
    (wf' : ScatterDims.WF (⟨2, ![R, C']⟩ : Shape) (⟨2, ![E, 1]⟩ : Shape) (⟨2, ![E, C']⟩ : Shape) [1] [0] [0] 1)
    (x' : (⟨2, ![R, C']⟩ : Shape).Idx → EReal) (x : (⟨2, ![R, C]⟩ : Shape).Idx → EReal)
    (idx : IVec (⟨2, ![E, 1]⟩ : Shape) w)
    (U' : (⟨2, ![E, C']⟩ : Shape).Idx → EReal) (U : (⟨2, ![E, C]⟩ : Shape).Idx → EReal)
    (r : Fin R) (k' : Fin C') (k : Fin C) (hx : x' (ix2 r k') = x (ix2 r k))
    (hU : ∀ e : Fin E, U' (ix2 e k') = U (ix2 e k)) :
    (Host.scatterAdd (F := Ideal) (φ := .f32) (rowDims wf') x' idx U' : (⟨2, ![R, C']⟩ : Shape).Idx → EReal) (ix2 r k')
      = (Host.scatterAdd (F := Ideal) (φ := .f32) (rowDims wf) x idx U : (⟨2, ![R, C]⟩ : Shape).Idx → EReal) (ix2 r k) := by
  rw [rowScatter_apply, rowScatter_apply, hx]
  unfold segSum
  simp only [hU]

/-- A row scatter-add of a column of one constant c into a zero column gives, at every row, a real number when c
    is: the count of the update rows landing there, times c. Stated for c the word of 1.0 and the operand zero. -/
theorem rowScatter_count_real
    (wf1 : ScatterDims.WF (⟨2, ![R, 1]⟩ : Shape) (⟨2, ![E, 1]⟩ : Shape) (⟨2, ![E, 1]⟩ : Shape) [1] [0] [0] 1)
    (x : (⟨2, ![R, 1]⟩ : Shape).Idx → EReal) (idx : IVec (⟨2, ![E, 1]⟩ : Shape) w)
    (U : (⟨2, ![E, 1]⟩ : Shape).Idx → EReal) (one : EReal) (hone : ∃ c : ℝ, one = (c : EReal))
    (hx : ∀ i, x i = 0) (hU : ∀ i, U i = one) (r : Fin R) :
    ∃ c : ℝ, (Host.scatterAdd (F := Ideal) (φ := .f32) (rowDims wf1) x idx U : (⟨2, ![R, 1]⟩ : Shape).Idx → EReal)
      (ix2 r (0 : Fin 1)) = (c : EReal) := by
  obtain ⟨c1, hc1⟩ := hone
  rw [rowScatter_apply, hx, zero_add]
  unfold segSum
  simp only [hU, hc1]
  classical
  induction (Finset.univ : Finset (Fin E)) using Finset.induction_on with
  | empty => exact ⟨0, by simp⟩
  | insert a t ha ih =>
    obtain ⟨c, hc⟩ := ih
    rw [Finset.sum_insert ha, hc]
    by_cases h : (idx (ix2 a (0 : Fin 1))).toInt = (r.val : ℤ)
    · exact ⟨c1 + c, by rw [if_pos h, ← EReal.coe_add]⟩
    · exact ⟨c, by rw [if_neg h, zero_add]⟩

end Cert.SegmentSum

end
-- ==== Proof.BridgeLayerOne.lean ====
/-
  The two programs compute the same hidden features.

  The kernel program adds the gathered rows with a ones column joined on into ONE zero array of 101 columns and cuts the
  sums (columns 0…99) and the counts (column 100) out of it; the reference adds the gathered rows into a zero array of 100
  columns and a ones column into a zero column. Column by column these are the same sums over the same edges, so the
  kernel's sums, counts and own rows are the reference's arrays (`sum1_eq`, `cnt1_eq`; the own rows by definition). The
  count is a sum of ones, hence real (`count1_real`), so multiplying by the reciprocal of the clamped count is dividing
  by it, and the bias may be added before or after the second product: entry by entry the first region's output is the
  reference's relu(mean · W1l + b1l + own · W1r)  (`hidden_eq`).
-/
import proofs.«154917_j5033701671208_2_alg».proof.Proof.KernelValue
import proofs.«154917_j5033701671208_2_alg».proof.Proof.RefReadP
import proofs.«154917_j5033701671208_2_alg».proof.Proof.LibRowScatter
import Idealize.ShloMosaic.Lib.ValueLayout

set_option maxRecDepth 16384

noncomputable section

open scoped BigOperators

namespace Cert.Bridge

open Idealize.ShloMosaic Idealize.ShloMosaic.ValueIdx Cert.Sage Cert.SegmentSum
open Cert.KernelIdeal.Result (sum1 cnt1 own1 msg1 ones1 dstCol1 seg1 hidden)
open Cert.ReferenceIdeal.ReadP

variable (a0 : Cert.KernelIdeal.S1000000x100.Idx → EReal) (a1 : Cert.KernelIdeal.S100x256.Idx → EReal) (a2 : Cert.KernelIdeal.S256.Idx → EReal)
  (a3 : Cert.KernelIdeal.S100x256.Idx → EReal) (a7 a8 : Cert.KernelIdeal.S1024000.Idx → BitVec 32)

/-- The joined updates at a column of the messages are the messages. -/
theorem joined1_left (e : Fin 1024000) (k : Fin 100) :
    concatenate Cert.KernelIdeal.S1024000x101 1 [⟨Cert.KernelIdeal.S1024000x100, msg1 (F := Ideal) a0 a7⟩, ⟨Cert.KernelIdeal.S1024000x1, ones1 (F := Ideal)⟩]
        Cert.KernelIdeal.Facts₀.concatenates_S1024000x100_S1024000x1_S1024000x101_d1 (ix2 e (⟨k.val, by have := k.isLt; omega⟩ : Fin 101))
      = msg1 (F := Ideal) a0 a7 (ix2 e k) :=
  concatenate_pair_apply_left (t := Cert.KernelIdeal.S1024000x101) (s₁ := Cert.KernelIdeal.S1024000x100) (s₂ := Cert.KernelIdeal.S1024000x1) (1 : Fin 2) _ _ _ (ix2 e (⟨k.val, by have := k.isLt; omega⟩ : Fin 101)) rfl (ix2 e k) (fun b => by
    match b with
    | ⟨0, _⟩ => rfl
    | ⟨1, _⟩ => rfl)

/-- The joined updates at the last column are the ones. -/
theorem joined1_right (e : Fin 1024000) :
    concatenate Cert.KernelIdeal.S1024000x101 1 [⟨Cert.KernelIdeal.S1024000x100, msg1 (F := Ideal) a0 a7⟩, ⟨Cert.KernelIdeal.S1024000x1, ones1 (F := Ideal)⟩]
        Cert.KernelIdeal.Facts₀.concatenates_S1024000x100_S1024000x1_S1024000x101_d1 (ix2 e (⟨100, by omega⟩ : Fin 101))
      = ones1 (F := Ideal) (ix2 e (0 : Fin 1)) :=
  concatenate_pair_apply_right (t := Cert.KernelIdeal.S1024000x101) (s₁ := Cert.KernelIdeal.S1024000x100) (s₂ := Cert.KernelIdeal.S1024000x1) (1 : Fin 2) _ _ _ (ix2 e (⟨100, by omega⟩ : Fin 101)) rfl rfl (ix2 e (0 : Fin 1)) (fun b hb => by
    match b with
    | ⟨0, _⟩ => rfl
    | ⟨1, _⟩ => exact absurd rfl hb) rfl

/-- The kernel's neighbour sums are the reference's. -/
theorem sum1_eq : sum1 (F := Ideal) a0 a7 a8 = val_main_v10 (F := Ideal) a0 a7 a8 := by
  funext i
  obtain ⟨r, k, rfl⟩ : ∃ (r : Fin 40960) (k : Fin 100), i = ix2 r k := ⟨i 0, i 1, eq_ix2 i⟩
  unfold sum1
  rw [slice2_axis1_apply 0 (seg1 (F := Ideal) a0 a7 a8) Cert.KernelIdeal.Facts₀.slices_S40960x101_S40960x100_0_0 r k
    (⟨k.val, by have := k.isLt; omega⟩ : Fin 101) (by simp)]
  exact rowScatter_congr (R := 40960) (C := 100) (C' := 101) (E := 1024000)
    Cert.ReferenceIdeal.Facts₀.scatter_S40960x100_S1024000x1_S1024000x100_1_0_0_1_wf
    Cert.KernelIdeal.Facts₀.scatter_S40960x101_S1024000x1_S1024000x101_1_0_0_1_wf _ _ _ _ _ r _ k rfl (fun e => joined1_left a0 a7 e k)

/-- The kernel's neighbour counts are the reference's. -/
theorem cnt1_eq : cnt1 (F := Ideal) a0 a7 a8 = val_main_v14 (F := Ideal) a8 := by
  funext i
  obtain ⟨r, u, rfl⟩ : ∃ (r : Fin 40960) (u : Fin 1), i = ix2 r u := ⟨i 0, i 1, eq_ix2 i⟩
  obtain rfl : u = 0 := Fin.ext (by omega)
  unfold cnt1
  rw [slice2_axis1_apply 100 (seg1 (F := Ideal) a0 a7 a8) Cert.KernelIdeal.Facts₀.slices_S40960x101_S40960x1_0_100 r (0 : Fin 1)
    (⟨100, by omega⟩ : Fin 101) (by simp)]
  exact rowScatter_congr (R := 40960) (C := 1) (C' := 101) (E := 1024000)
    Cert.ReferenceIdeal.Facts₀.scatter_S40960x1_S1024000x1_S1024000x1_1_0_0_1_wf
    Cert.KernelIdeal.Facts₀.scatter_S40960x101_S1024000x1_S1024000x101_1_0_0_1_wf _ _ _ _ _ r _ (0 : Fin 1) rfl
    (fun e => joined1_right a0 a7 e)

/-- A neighbour count is a real number. -/
theorem count1_real (r : Fin 40960) : ∃ c : ℝ, val_main_v14 (F := Ideal) a8 (ix2 r (0 : Fin 1)) = (c : EReal) :=
  rowScatter_count_real (R := 40960) (E := 1024000) Cert.ReferenceIdeal.Facts₀.scatter_S40960x1_S1024000x1_S1024000x1_1_0_0_1_wf
    _ _ _ one ⟨1, one_eq⟩ (fun _ => Ideal.ofBits_zero_f32) (fun _ => rfl) r

/-- The reference's mean at (r, k): its sum over its clamped count. -/
theorem ref_mean1 (r : Fin 40960) (k : Fin 100) :
    val_main_v18 (F := Ideal) a0 a7 a8 (ix2 r k)
      = Ideal.div (val_main_v10 (F := Ideal) a0 a7 a8 (ix2 r k))
          (max (val_main_v14 (F := Ideal) a8 (ix2 r (0 : Fin 1))) one) := by
  have e6 : idx_main_v17 (ix2 r k) = ix2 r (0 : Fin 1) := funext fun a => by
    match a with
    | ⟨0, _⟩ => rfl
    | ⟨1, _⟩ => rfl
  rw [val_main_v18_apply, val_main_v17_apply, e6, val_main_v16_apply]
  rfl

/-- The reference's hidden entry (r, j): the dense step on the means taken by division, clamped at 0. -/
theorem ref_hidden (r : Fin 40960) (j : Fin 256) :
    val_main_v25 (F := Ideal) a0 a1 a2 a3 a7 a8 (ix2 r j)
      = max (denseDiv (fun k : Fin 100 => val_main_v10 (F := Ideal) a0 a7 a8 (ix2 r k))
          (val_main_v14 (F := Ideal) a8 (ix2 r (0 : Fin 1))) (fun k : Fin 100 => val_main_v0 (F := Ideal) a0 (ix2 r k))
          (fun k : Fin 100 => a1 (ix2 k j)) (fun k : Fin 100 => a3 (ix2 k j)) (a2 (ix1 j))) zero := by
  rw [val_main_v25_apply, val_main_v24_apply, val_main_v22_apply, val_main_v19_apply, val_main_v23_apply,
    val_main_v21_apply, val_main_v20_apply]
  have e1 : ∀ k : Fin 100, lidx_main_v19 (ix2 r j) k = ix2 r k := fun k => funext fun a => by
    match a with
    | ⟨0, _⟩ => rfl
    | ⟨1, _⟩ => rfl
  have e2 : ∀ k : Fin 100, ridx_main_v19 (ix2 r j) k = ix2 k j := fun k => funext fun a => by
    match a with
    | ⟨0, _⟩ => rfl
    | ⟨1, _⟩ => rfl
  have e3 : ∀ k : Fin 100, lidx_main_v23 (ix2 r j) k = ix2 r k := fun k => funext fun a => by
    match a with
    | ⟨0, _⟩ => rfl
    | ⟨1, _⟩ => rfl
  have e4 : ∀ k : Fin 100, ridx_main_v23 (ix2 r j) k = ix2 k j := fun k => funext fun a => by
    match a with
    | ⟨0, _⟩ => rfl
    | ⟨1, _⟩ => rfl
  have e5 : idx_main_v20 (idx_main_v21 (ix2 r j)) = ix1 j := funext fun a => by
    match a with
    | ⟨0, _⟩ => rfl
  have hs1 : (∑ k : Fin 100, val_main_v18 (F := Ideal) a0 a7 a8 (lidx_main_v19 (ix2 r j) k) * a1 (ridx_main_v19 (ix2 r j) k))
      = ∑ k : Fin 100, Ideal.div (val_main_v10 (F := Ideal) a0 a7 a8 (ix2 r k))
          (max (val_main_v14 (F := Ideal) a8 (ix2 r (0 : Fin 1))) one) * a1 (ix2 k j) :=
    Finset.sum_congr rfl fun k _ => by rw [e1 k, e2 k, ref_mean1]
  have hs2 : (∑ k : Fin 100, val_main_v0 (F := Ideal) a0 (lidx_main_v23 (ix2 r j) k) * a3 (ridx_main_v23 (ix2 r j) k))
      = ∑ k : Fin 100, val_main_v0 (F := Ideal) a0 (ix2 r k) * a3 (ix2 k j) :=
    Finset.sum_congr rfl fun k _ => by rw [e3 k, e4 k]
  rw [hs1, hs2, e5]
  rfl

/-- THE HIDDEN FEATURES of the two programs are one array. -/
theorem hidden_eq : hidden a0 a1 a2 a3 a7 a8 = val_main_v25 (F := Ideal) a0 a1 a2 a3 a7 a8 := by
  funext i
  obtain ⟨r, j, rfl⟩ : ∃ (r : Fin 40960) (j : Fin 256), i = ix2 r j := ⟨i 0, i 1, eq_ix2 i⟩
  obtain ⟨c, hc⟩ := count1_real a8 r
  show max (denseMul (fun k : Fin 100 => sum1 (F := Ideal) a0 a7 a8 (ix2 r k)) (cnt1 (F := Ideal) a0 a7 a8 (ix2 r (0 : Fin 1)))
      (fun k : Fin 100 => own1 (F := Ideal) a0 (ix2 r k)) (fun k : Fin 100 => a1 (ix2 k j)) (fun k : Fin 100 => a3 (ix2 k j))
      (a2 (ix1 j))) zero = _
  rw [ref_hidden, sum1_eq, cnt1_eq, hc, denseMul_eq_denseDiv]
  rfl

end Cert.Bridge

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.BridgeLayerTwo.lean ====
/-
  The two programs compute the same result.

  With the hidden features one array (BridgeLayerOne), layer two repeats layer one's argument: the kernel program's sums
  and counts, cut out of one scatter of the gathered hidden rows with a ones column joined on, are the reference's two
  scatters (`sum2_eq`, `cnt2_eq`); the count is real (`count2_real`), so the mean by the reciprocal is the mean by
  division and the bias moves across the second product (`denseMul_eq_denseDiv`). The reference's log-softmax takes the
  row maximum by a host reduction from −∞ and then the maximum of that with −∞ again, which changes nothing, and adds
  its exponentials up from 0; entry by entry it is the kernel's  z − log Σ exp z,  z the row less its maximum (`out_eq`).
-/
import proofs.«154917_j5033701671208_2_alg».proof.Proof.BridgeLayerOne
import proofs.«154917_j5033701671208_2_alg».proof.Proof.LibHostRowMax

set_option maxRecDepth 16384

noncomputable section

open scoped BigOperators

namespace Cert.Bridge

open Idealize.ShloMosaic Idealize.ShloMosaic.ValueIdx Cert.Sage Cert.SegmentSum
open Cert.KernelIdeal.Result (sum2 cnt2 own2 msg2 ones2 dstCol2 seg2 hidden out)
open Cert.ReferenceIdeal.ReadP

variable (a0 : Cert.KernelIdeal.S1000000x100.Idx → EReal) (a1 : Cert.KernelIdeal.S100x256.Idx → EReal) (a2 : Cert.KernelIdeal.S256.Idx → EReal)
  (a3 : Cert.KernelIdeal.S100x256.Idx → EReal) (a4 : Cert.KernelIdeal.S256x47.Idx → EReal) (a5 : Cert.KernelIdeal.S47.Idx → EReal)
  (a6 : Cert.KernelIdeal.S256x47.Idx → EReal) (a7 a8 : Cert.KernelIdeal.S1024000.Idx → BitVec 32) (a9 a10 : Cert.KernelIdeal.S40960.Idx → BitVec 32)

/-- The joined updates at a column of the messages are the messages. -/
theorem joined2_left (H : Cert.KernelIdeal.S40960x256.Idx → EReal) (e : Fin 40960) (k : Fin 256) :
    concatenate Cert.KernelIdeal.S40960x257 1 [⟨Cert.KernelIdeal.S40960x256, msg2 (F := Ideal) H a9⟩, ⟨Cert.KernelIdeal.S40960x1, ones2 (F := Ideal)⟩]
        Cert.KernelIdeal.Facts₀.concatenates_S40960x256_S40960x1_S40960x257_d1 (ix2 e (⟨k.val, by have := k.isLt; omega⟩ : Fin 257))
      = msg2 (F := Ideal) H a9 (ix2 e k) :=
  concatenate_pair_apply_left (t := Cert.KernelIdeal.S40960x257) (s₁ := Cert.KernelIdeal.S40960x256) (s₂ := Cert.KernelIdeal.S40960x1) (1 : Fin 2) _ _ _ (ix2 e (⟨k.val, by have := k.isLt; omega⟩ : Fin 257)) rfl (ix2 e k) (fun b => by
    match b with
    | ⟨0, _⟩ => rfl
    | ⟨1, _⟩ => rfl)

/-- The joined updates at the last column are the ones. -/
theorem joined2_right (H : Cert.KernelIdeal.S40960x256.Idx → EReal) (e : Fin 40960) :
    concatenate Cert.KernelIdeal.S40960x257 1 [⟨Cert.KernelIdeal.S40960x256, msg2 (F := Ideal) H a9⟩, ⟨Cert.KernelIdeal.S40960x1, ones2 (F := Ideal)⟩]
        Cert.KernelIdeal.Facts₀.concatenates_S40960x256_S40960x1_S40960x257_d1 (ix2 e (⟨256, by omega⟩ : Fin 257))
      = ones2 (F := Ideal) (ix2 e (0 : Fin 1)) :=
  concatenate_pair_apply_right (t := Cert.KernelIdeal.S40960x257) (s₁ := Cert.KernelIdeal.S40960x256) (s₂ := Cert.KernelIdeal.S40960x1) (1 : Fin 2) _ _ _ (ix2 e (⟨256, by omega⟩ : Fin 257)) rfl rfl (ix2 e (0 : Fin 1)) (fun b hb => by
    match b with
    | ⟨0, _⟩ => rfl
    | ⟨1, _⟩ => exact absurd rfl hb) rfl

/-- The kernel's second-layer neighbour sums, taken of the reference's hidden features, are the reference's. -/
theorem sum2_eq : sum2 (F := Ideal) (val_main_v25 (F := Ideal) a0 a1 a2 a3 a7 a8) a9 a10
    = val_main_v36 (F := Ideal) a0 a1 a2 a3 a7 a8 a9 a10 := by
  funext i
  obtain ⟨r, k, rfl⟩ : ∃ (r : Fin 4096) (k : Fin 256), i = ix2 r k := ⟨i 0, i 1, eq_ix2 i⟩
  unfold sum2
  rw [slice2_axis1_apply 0 (seg2 (F := Ideal) (val_main_v25 (F := Ideal) a0 a1 a2 a3 a7 a8) a9 a10)
    Cert.KernelIdeal.Facts₀.slices_S4096x257_S4096x256_0_0 r k (⟨k.val, by have := k.isLt; omega⟩ : Fin 257) (by simp)]
  exact rowScatter_congr (R := 4096) (C := 256) (C' := 257) (E := 40960)
    Cert.ReferenceIdeal.Facts₀.scatter_S4096x256_S40960x1_S40960x256_1_0_0_1_wf
    Cert.KernelIdeal.Facts₀.scatter_S4096x257_S40960x1_S40960x257_1_0_0_1_wf _ _ _ _ _ r _ k rfl
    (fun e => joined2_left a9 (val_main_v25 (F := Ideal) a0 a1 a2 a3 a7 a8) e k)

/-- The kernel's second-layer neighbour counts are the reference's. -/
theorem cnt2_eq (H : Cert.KernelIdeal.S40960x256.Idx → EReal) : cnt2 (F := Ideal) H a9 a10 = val_main_v40 (F := Ideal) a10 := by
  funext i
  obtain ⟨r, u, rfl⟩ : ∃ (r : Fin 4096) (u : Fin 1), i = ix2 r u := ⟨i 0, i 1, eq_ix2 i⟩
  obtain rfl : u = 0 := Fin.ext (by omega)
  unfold cnt2
  rw [slice2_axis1_apply 256 (seg2 (F := Ideal) H a9 a10) Cert.KernelIdeal.Facts₀.slices_S4096x257_S4096x1_0_256 r (0 : Fin 1)
    (⟨256, by omega⟩ : Fin 257) (by simp)]
  exact rowScatter_congr (R := 4096) (C := 1) (C' := 257) (E := 40960)
    Cert.ReferenceIdeal.Facts₀.scatter_S4096x1_S40960x1_S40960x1_1_0_0_1_wf
    Cert.KernelIdeal.Facts₀.scatter_S4096x257_S40960x1_S40960x257_1_0_0_1_wf _ _ _ _ _ r _ (0 : Fin 1) rfl
    (fun e => joined2_right a9 H e)

/-- A second-layer neighbour count is a real number. -/
theorem count2_real (r : Fin 4096) : ∃ c : ℝ, val_main_v40 (F := Ideal) a10 (ix2 r (0 : Fin 1)) = (c : EReal) :=
  rowScatter_count_real (R := 4096) (E := 40960) Cert.ReferenceIdeal.Facts₀.scatter_S4096x1_S40960x1_S40960x1_1_0_0_1_wf
    _ _ _ one ⟨1, one_eq⟩ (fun _ => Ideal.ofBits_zero_f32) (fun _ => rfl) r

/-- The reference's second-layer mean at (r, k): its sum over its clamped count. -/
theorem ref_mean2 (r : Fin 4096) (k : Fin 256) :
    val_main_v44 (F := Ideal) a0 a1 a2 a3 a7 a8 a9 a10 (ix2 r k)
      = Ideal.div (val_main_v36 (F := Ideal) a0 a1 a2 a3 a7 a8 a9 a10 (ix2 r k))
          (max (val_main_v40 (F := Ideal) a10 (ix2 r (0 : Fin 1))) one) := by
  have e6 : idx_main_v43 (ix2 r k) = ix2 r (0 : Fin 1) := funext fun a => by
    match a with
    | ⟨0, _⟩ => rfl
    | ⟨1, _⟩ => rfl
  rw [val_main_v44_apply, val_main_v43_apply, e6, val_main_v42_apply]
  rfl

/-- The reference's pre-softmax entry (r, q): the dense step on the means taken by division. -/
theorem ref_acc (r : Fin 4096) (q : Fin 47) :
    val_main_v50 (F := Ideal) a0 a1 a2 a3 a4 a5 a6 a7 a8 a9 a10 (ix2 r q)
      = denseDiv (fun k : Fin 256 => val_main_v36 (F := Ideal) a0 a1 a2 a3 a7 a8 a9 a10 (ix2 r k))
          (val_main_v40 (F := Ideal) a10 (ix2 r (0 : Fin 1)))
          (fun k : Fin 256 => val_main_v26 (F := Ideal) a0 a1 a2 a3 a7 a8 (ix2 r k))
          (fun k : Fin 256 => a4 (ix2 k q)) (fun k : Fin 256 => a6 (ix2 k q)) (a5 (ix1 q)) := by
  rw [val_main_v50_apply, val_main_v48_apply, val_main_v45_apply, val_main_v49_apply, val_main_v47_apply,
    val_main_v46_apply]
  have e1 : ∀ k : Fin 256, lidx_main_v45 (ix2 r q) k = ix2 r k := fun k => funext fun a => by
    match a with
    | ⟨0, _⟩ => rfl
    | ⟨1, _⟩ => rfl
  have e2 : ∀ k : Fin 256, ridx_main_v45 (ix2 r q) k = ix2 k q := fun k => funext fun a => by
    match a with
    | ⟨0, _⟩ => rfl
    | ⟨1, _⟩ => rfl
  have e3 : ∀ k : Fin 256, lidx_main_v49 (ix2 r q) k = ix2 r k := fun k => funext fun a => by
    match a with
    | ⟨0, _⟩ => rfl
    | ⟨1, _⟩ => rfl
  have e4 : ∀ k : Fin 256, ridx_main_v49 (ix2 r q) k = ix2 k q := fun k => funext fun a => by
    match a with
    | ⟨0, _⟩ => rfl
    | ⟨1, _⟩ => rfl
  have e5 : idx_main_v46 (idx_main_v47 (ix2 r q)) = ix1 q := funext fun a => by
    match a with
    | ⟨0, _⟩ => rfl
  have hs1 : (∑ k : Fin 256, val_main_v44 (F := Ideal) a0 a1 a2 a3 a7 a8 a9 a10 (lidx_main_v45 (ix2 r q) k) * a4 (ridx_main_v45 (ix2 r q) k))
      = ∑ k : Fin 256, Ideal.div (val_main_v36 (F := Ideal) a0 a1 a2 a3 a7 a8 a9 a10 (ix2 r k))
          (max (val_main_v40 (F := Ideal) a10 (ix2 r (0 : Fin 1))) one) * a4 (ix2 k q) :=
    Finset.sum_congr rfl fun k _ => by rw [e1 k, e2 k, ref_mean2]
  have hs2 : (∑ k : Fin 256, val_main_v26 (F := Ideal) a0 a1 a2 a3 a7 a8 (lidx_main_v49 (ix2 r q) k) * a6 (ridx_main_v49 (ix2 r q) k))
      = ∑ k : Fin 256, val_main_v26 (F := Ideal) a0 a1 a2 a3 a7 a8 (ix2 r k) * a6 (ix2 k q) :=
    Finset.sum_congr rfl fun k _ => by rw [e3 k, e4 k]
  rw [hs1, hs2, e5]
  rfl

/-- The reference's row maximum, broadcast back: the fold of max from −∞ over the row, whatever the column. -/
theorem ref_max (r : Fin 4096) (q : Fin 47) :
    val_main_call1_v4 (F := Ideal) a0 a1 a2 a3 a4 a5 a6 a7 a8 a9 a10 (ix2 r q)
      = (Finset.univ : Finset (Fin 47)).fold max negInf (fun q' => val_main_v50 (F := Ideal) a0 a1 a2 a3 a4 a5 a6 a7 a8 a9 a10 (ix2 r q')) := by
  rw [val_main_call1_v4_apply, val_main_call1_v3_apply, val_main_call1_v2_apply]
  have e1 : idx_main_call1_v3 (idx_main_call1_v4 (ix2 r q)) = ix1 r := funext fun a => by
    match a with
    | ⟨0, _⟩ => rfl
  rw [e1]
  unfold val_main_call1_v0
  rw [HostRowMax.hostReduceMax_row (a := 4096) (n := 47) _ _ Cert.ReferenceIdeal.Facts₀.reducesTo_S4096x47_S4096_d1 (by decide) Cert.ReferenceIdeal.Facts₀.h_S_ r]
  have hfold : negInf ≤ (Finset.univ : Finset (Fin 47)).fold max negInf
      (fun q' => val_main_v50 (F := Ideal) a0 a1 a2 a3 a4 a5 a6 a7 a8 a9 a10 (ix2 r q')) := (Finset.le_fold_max negInf).mpr (Or.inl le_rfl)
  show max negInf ((Finset.univ : Finset (Fin 47)).fold max negInf
      (fun q' => val_main_v50 (F := Ideal) a0 a1 a2 a3 a4 a5 a6 a7 a8 a9 a10 (ix2 r q'))) = _
  exact max_eq_right hfold

/-- THE RESULTS of the two programs are one array. -/
theorem out_eq : out a0 a1 a2 a3 a4 a5 a6 a7 a8 a9 a10 = val_main_v51 (F := Ideal) a0 a1 a2 a3 a4 a5 a6 a7 a8 a9 a10 := by
  funext i
  obtain ⟨r, j, rfl⟩ : ∃ (r : Fin 4096) (j : Fin 47), i = ix2 r j := ⟨i 0, i 1, eq_ix2 i⟩
  obtain ⟨c, hc⟩ := count2_real a10 r
  -- the kernel's entry, over the reference's arrays
  have hker : out a0 a1 a2 a3 a4 a5 a6 a7 a8 a9 a10 (ix2 r j)
      = logSoftmaxRow (fun q : Fin 47 => val_main_v50 (F := Ideal) a0 a1 a2 a3 a4 a5 a6 a7 a8 a9 a10 (ix2 r q)) j := by
    unfold out
    rw [hidden_eq, sum2_eq, cnt2_eq]
    show logSoftmaxRow (fun q : Fin 47 => denseMul
        (fun k : Fin 256 => val_main_v36 (F := Ideal) a0 a1 a2 a3 a7 a8 a9 a10 (ix2 r k))
        (val_main_v40 (F := Ideal) a10 (ix2 r (0 : Fin 1)))
        (fun k : Fin 256 => own2 (F := Ideal) (val_main_v25 (F := Ideal) a0 a1 a2 a3 a7 a8) (ix2 r k))
        (fun k : Fin 256 => a4 (ix2 k q)) (fun k : Fin 256 => a6 (ix2 k q)) (a5 (ix1 q))) j = _
    refine congrArg (fun f => logSoftmaxRow f j) (funext fun q => ?_)
    rw [ref_acc, hc, denseMul_eq_denseDiv]
    rfl
  rw [hker]
  -- the reference's entry
  have e1 : idx_main_call1_v8 (idx_main_call1_v10 (ix2 r j)) = ix1 r := funext fun a => by
    match a with
    | ⟨0, _⟩ => rfl
  have e2 : ∀ k : Fin 47, idx_main_call1_v7 (ix1 r) k = ix2 r k := fun k => funext fun a => by
    match a with
    | ⟨0, _⟩ => rfl
    | ⟨1, _⟩ => rfl
  have hshift : ∀ q : Fin 47, val_main_call1_v5 (F := Ideal) a0 a1 a2 a3 a4 a5 a6 a7 a8 a9 a10 (ix2 r q)
      = val_main_v50 (F := Ideal) a0 a1 a2 a3 a4 a5 a6 a7 a8 a9 a10 (ix2 r q)
        - (Finset.univ : Finset (Fin 47)).fold max negInf (fun q' => val_main_v50 (F := Ideal) a0 a1 a2 a3 a4 a5 a6 a7 a8 a9 a10 (ix2 r q')) :=
    fun q => by rw [val_main_call1_v5_apply, ref_max, Ideal.subf_def]
  have hexp : ∀ k : Fin 47, val_main_call1_v6 (F := Ideal) a0 a1 a2 a3 a4 a5 a6 a7 a8 a9 a10 (idx_main_call1_v7 (ix1 r) k)
      = Ideal.exp (val_main_v50 (F := Ideal) a0 a1 a2 a3 a4 a5 a6 a7 a8 a9 a10 (ix2 r k)
          - (Finset.univ : Finset (Fin 47)).fold max negInf (fun q' => val_main_v50 (F := Ideal) a0 a1 a2 a3 a4 a5 a6 a7 a8 a9 a10 (ix2 r q'))) :=
    fun k => by rw [e2 k, val_main_call1_v6_apply, Ideal.hostUnary_exp_def, hshift]
  have hz : (val_main_call1_cst_1 (F := Ideal)) (Shape.Idx.first Cert.ReferenceIdeal.Facts₀.h_S_) = 0 := Ideal.ofBits_zero_f32
  have hlog : val_main_call1_v10 (F := Ideal) a0 a1 a2 a3 a4 a5 a6 a7 a8 a9 a10 (ix2 r j)
      = Ideal.log (∑ k : Fin 47, Ideal.exp (val_main_v50 (F := Ideal) a0 a1 a2 a3 a4 a5 a6 a7 a8 a9 a10 (ix2 r k)
          - (Finset.univ : Finset (Fin 47)).fold max negInf (fun q' => val_main_v50 (F := Ideal) a0 a1 a2 a3 a4 a5 a6 a7 a8 a9 a10 (ix2 r q')))) := by
    rw [val_main_call1_v10_apply, val_main_call1_v9_apply, Ideal.hostUnary_log_def, val_main_call1_v8_apply, e1,
      val_main_call1_v7_apply, hz, zero_add]
    exact congrArg Ideal.log (Finset.sum_congr rfl fun k _ => hexp k)
  rw [val_main_v51_apply, Ideal.subf_def, hshift, hlog]
  rfl

end Cert.Bridge

end
-- ==== Proof.lean ====
/-
  The certificate of a two-layer mean-aggregation graph network (sampled neighbours, relu between the layers,
  log-softmax at the end): the kernel program against its array-language reference, on the extended reals.

  Both programs gather, for each edge, the source node's row, add the gathered rows up per destination node, divide by
  the clamped neighbour count, and form  mean · Wl + own · Wr + b;  layer one ends in max(·, 0), layer two in a row-wise
  log-softmax. They differ in three ways, none of which changes a value on the extended reals:
    · the kernel program joins a column of ones onto the gathered rows and adds sums and counts up in one pass, where the
      reference makes two passes — column by column the same sums over the same edges;
    · it multiplies the sums by 1 / max(count, 1) where the reference divides by max(count, 1) — the count is a sum of
      ones, so the divisor is a real number ≥ 1 and the two agree even at infinite sums;
    · it adds the bias after the second product, the reference before — addition is commutative and associative.
  The changes of float format inside the kernel are the identity here, and its tiling of the node axis is invisible in
  the whole-array value. No step uses that the inputs are finite.

  The frames of the two kernel programs and the reference's run are generated; `preserves` is trivially true (the ideal
  pass rewrote nothing). Written by hand: the scatter read at an entry (LibRowScatter), the layer as vector terms read at an
  entry (DenseRows), each region's output array (LayerOneArray, LayerTwoArray), the kernel program's run with its
  result named and that result as one function of the arguments (KernelRun, KernelValue), and the two bridges.
-/
import proofs.«154917_j5033701671208_2_alg».proof.Defs
import proofs.«154917_j5033701671208_2_alg».proof.Proof.Gen.Kernel
import proofs.«154917_j5033701671208_2_alg».proof.Proof.Gen.Kernel.Skeleton
import proofs.«154917_j5033701671208_2_alg».proof.Proof.Gen.Kernel.Launch
import proofs.«154917_j5033701671208_2_alg».proof.Proof.Gen.Kernel.Points
import proofs.«154917_j5033701671208_2_alg».proof.Proof.Gen.Kernel.Frame
import proofs.«154917_j5033701671208_2_alg».proof.Proof.Gen.KernelIdeal
import proofs.«154917_j5033701671208_2_alg».proof.Proof.Gen.KernelIdeal.Skeleton
import proofs.«154917_j5033701671208_2_alg».proof.Proof.Gen.KernelIdeal.Launch
import proofs.«154917_j5033701671208_2_alg».proof.Proof.Gen.KernelIdeal.Points
import proofs.«154917_j5033701671208_2_alg».proof.Proof.Gen.KernelIdeal.Frame
import proofs.«154917_j5033701671208_2_alg».proof.Proof.Gen.ReferenceIdeal
import proofs.«154917_j5033701671208_2_alg».proof.Proof.Gen.Pre_finite_inputs
import proofs.«154917_j5033701671208_2_alg».proof.Proof.RefRunP
import proofs.«154917_j5033701671208_2_alg».proof.Proof.RefReadP
import proofs.«154917_j5033701671208_2_alg».proof.Proof.KernelRun
import proofs.«154917_j5033701671208_2_alg».proof.Proof.KernelValue
import proofs.«154917_j5033701671208_2_alg».proof.Proof.BridgeLayerTwo
import Idealize.ShloMosaic.Adequacy
import Idealize.ShloMosaic.Init

set_option maxRecDepth 16384

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the network's output of those arguments: the kernel
    program's result buffer at `out` of its launch contents, the reference's at its composed term, and the two are one
    array. -/
theorem algebraic : Cert.algebraic_KernelIdeal_ReferenceIdeal := by
  intro m ρ m' ρ' _ hagree
  refine ⟨fun c => Cert.KernelIdeal.Result.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Result.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v51_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.out_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
